-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S16777216x2 .f32) (main_arg1 : FVec F S16777216 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216x2 : Shape := ⟨2, ![16777216, 2]⟩
abbrev S16777216 : Shape := ⟨1, ![16777216]⟩
abbrev S2x65536x256 : Shape := ⟨3, ![2, 65536, 256]⟩
abbrev S2x65536x128 : Shape := ⟨3, ![2, 65536, 128]⟩
abbrev S16x128 : Shape := ⟨2, ![16, 128]⟩
abbrev S1x2048x256 : Shape := ⟨3, ![1, 2048, 256]⟩
abbrev S1x2048x128 : Shape := ⟨3, ![1, 2048, 128]⟩
abbrev S8x128 : Shape := ⟨2, ![8, 128]⟩
abbrev S1x128 : Shape := ⟨2, ![1, 128]⟩
abbrev S1x256x256 : Shape := ⟨3, ![1, 256, 256]⟩
abbrev S256x256 : Shape := ⟨2, ![256, 256]⟩
abbrev S256x128x2 : Shape := ⟨3, ![256, 128, 2]⟩
abbrev S256x128x1 : Shape := ⟨3, ![256, 128, 1]⟩
abbrev S256x128 : Shape := ⟨2, ![256, 128]⟩
abbrev S1x256x128 : Shape := ⟨3, ![1, 256, 128]⟩
abbrev S128 : Shape := ⟨1, ![128]⟩
abbrev S1 : Shape := ⟨1, ![1]⟩
abbrev S1x1 : Shape := ⟨2, ![1, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S16777216x2, .f32⟩
  | .hbm, ⟨1, _⟩ => ⟨S16777216, .f32⟩
  | .hbm, ⟨2, _⟩ => ⟨S2x65536x256, .f32⟩
  | .hbm, ⟨3, _⟩ => ⟨S2x65536x128, .f32⟩
  | .hbm, ⟨4, _⟩ => ⟨S16x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x128, .f32⟩
  | .local _ .vmem, ⟨3, _⟩ => ⟨S1x2048x128, .f32⟩
  | .local _ .vmem, ⟨4, _⟩ => ⟨S8x128, .f32⟩
  | .local _ .vmem, ⟨5, _⟩ => ⟨S8x128, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c256_i32 : BitVec 32 := 256#32
  let v24 : BitVec 32 := Scalar.muli arg5 c256_i32
  v24
def k0_off1 (k0_t1 : Fin k0_t1_loop.trips) : Fin 3 → Nat :=
  let c0_9 : Index := 0#32
  let c0_i32_1 : BitVec 32 := 0#32
  let c1_i32 : BitVec 32 := 1#32
  let arg5 : BitVec 32 := Scf.iv c0_i32_1 c1_i32 k0_t1
  let c256_i32 : BitVec 32 := 256#32
  let v24 : BitVec 32 := Scalar.muli arg5 c256_i32
  let v25 : BitVec 32 := v24
  let v26 : Index := Scalar.indexCast v25
  let c0_10 : Index := 0#32
  ![0, v26.toNat, 0]
def k0_off2 (k0_t1 : Fin k0_t1_loop.trips) : Fin 3 → Nat :=
  let c0_11 : Index := 0#32
  let c0_i32_1 : BitVec 32 := 0#32
  let c1_i32 : BitVec 32 := 1#32
  let arg5 : BitVec 32 := Scf.iv c0_i32_1 c1_i32 k0_t1
  let c256_i32 : BitVec 32 := 256#32
  let v24 : BitVec 32 := Scalar.muli arg5 c256_i32
  let v25 : BitVec 32 := v24
  let v34 : Index := Scalar.indexCast v25
  let c0_12 : Index := 0#32
  ![0, v34.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216x2_S2x65536x256 : S16777216x2.ShapeCasts S2x65536x256
  shapeCasts_S16777216_S2x65536x128 : S16777216.ShapeCasts S2x65536x128
  inb_S8x128_S8x128_0_0 : ∀ a, (![0, 0] : Fin 2 → Nat) a + S8x128.size a ≤ S8x128.size a
  h_S8x128 : 0 < S8x128.numel
  h_S1x256x256 : 0 < S1x256x256.numel
  shapeCasts_S1x256x256_S256x256 : S1x256x256.ShapeCasts S256x256
  shapeCasts_S256x256_S256x128x2 : S256x256.ShapeCasts S256x128x2
  slices_S256x128x2_o0_0_0_S256x128x1 : S256x128x2.Slices ![0, 0, 0] S256x128x1
  shapeCasts_S256x128x1_S256x128 : S256x128x1.ShapeCasts S256x128
  slices_S256x128x2_o0_0_1_S256x128x1 : S256x128x2.Slices ![0, 0, 1] S256x128x1
  h_S1x256x128 : 0 < S1x256x128.numel
  shapeCasts_S1x256x128_S256x128 : S1x256x128.ShapeCasts S256x128
  natLt_1_32 : 1 < 32
  reduces_S256x128_S128 : S256x128.Reduces [0] S128
  shapeCasts_S128_S1x128 : S128.ShapeCasts S1x128
  reduces_S1x128_S1 : S1x128.Reduces [1] S1
  shapeCasts_S1_S1x1 : S1.ShapeCasts S1x1
  iota_S8x128_d0_w32 : S8x128.Iotas .tc 32 [0]
  iota_S8x128_d1_w32 : S8x128.Iotas .tc 32 [1]
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x256.size a ≤ S1x2048x256.size a
  k0_off2_inb : ∀ k0_t1 : Fin k0_t1_loop.trips, ∀ a, (k0_off2 k0_t1) a + S1x256x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S2x65536x256.size a
  hwx0_0 : ∀ i : grid0.Coords, EltTy.bits .f32 = 32 ∨ (Rect.block (s := S2x65536x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S2x65536x128.size a
  hwx0_1 : ∀ i : grid0.Coords, EltTy.bits .f32 = 32 ∨ (Rect.block (s := S2x65536x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216 : Shape := ⟨1, ![16777216]⟩
abbrev S_ : Shape := ⟨0, ![]⟩
abbrev S16777216x1 : Shape := ⟨2, ![16777216, 1]⟩

abbrev nBuf : Space → Nat
  | .hbm => 49
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .f32⟩
  | .hbm, ⟨2, _⟩ => ⟨S_, .f32⟩
  | .hbm, ⟨3, _⟩ => ⟨S16777216, .f32⟩
  | .hbm, ⟨4, _⟩ => ⟨S16777216, .i1⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216x1, .f32⟩
  | .hbm, ⟨16, _⟩ => ⟨S16777216x1, .f32⟩
  | .hbm, ⟨17, _⟩ => ⟨S16777216x2, .f32⟩
  | .hbm, ⟨18, _⟩ => ⟨S_, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216x1, .f32⟩
  | .hbm, ⟨24, _⟩ => ⟨S16777216x2, .f32⟩
  | .hbm, ⟨25, _⟩ => ⟨S16777216x2, .f32⟩
  | .hbm, ⟨26, _⟩ => ⟨S16777216x2, .f32⟩
  | .hbm, ⟨27, _⟩ => ⟨S_, .f32⟩
  | .hbm, ⟨28, _⟩ => ⟨S16777216, .f32⟩
  | .hbm, ⟨29, _⟩ => ⟨S16777216x1, .f32⟩
  | .hbm, ⟨30, _⟩ => ⟨S16777216x1, .f32⟩
  | .hbm, ⟨31, _⟩ => ⟨S16777216x2, .f32⟩
  | .hbm, ⟨32, _⟩ => ⟨S16777216x2, .f32⟩
  | .hbm, ⟨33, _⟩ => ⟨S16777216x2, .f32⟩
  | .hbm, ⟨34, _⟩ => ⟨S_, .f32⟩
  | .hbm, ⟨35, _⟩ => ⟨S16777216x2, .f32⟩
  | .hbm, ⟨36, _⟩ => ⟨S16777216x2, .f32⟩
  | .hbm, ⟨37, _⟩ => ⟨S_, .f32⟩
  | .hbm, ⟨38, _⟩ => ⟨S16777216x2, .f32⟩
  | .hbm, ⟨39, _⟩ => ⟨S16777216x2, .f32⟩
  | .hbm, ⟨40, _⟩ => ⟨S16777216x2, .f32⟩
  | .hbm, ⟨41, _⟩ => ⟨S16777216x2, .f32⟩
  | .hbm, ⟨42, _⟩ => ⟨S_, .f32⟩
  | .hbm, ⟨43, _⟩ => ⟨S16777216, .f32⟩
  | .hbm, ⟨44, _⟩ => ⟨S16777216, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  reducesTo_S16777216x2_S16777216_d1 : S16777216x2.ReducesTo [1] S16777216
  h_S_ : 0 < S_.numel
  bcast_S16777216x1_S16777216x2_0_1 : S16777216x1.BroadcastsInDim S16777216x2 (![0, 1] : Fin 2 → Fin S16777216x2.rank)
  bcast_S_S16777216x2 : S_.BroadcastsInDim S16777216x2 (![] : Fin 0 → Fin S16777216x2.rank)
  reducesTo_S16777216_S_d0 : S16777216.ReducesTo [0] S_

variable [Facts₀]

class Facts : Prop extends Facts₀ where

variable [Facts]
-- ==== Proof.Spec.lean ====
/-
  The mathematics both programs compute: a two-class focal loss summed over all rows.

  For a row with logits `a`, `b` and score `g`: the target indicator `ind g` is 1 when `g ≥ 1/2` and 0 otherwise;
  the class weights are `w₁ = ind g / 4` and `w₀ = (1 − w₁) · 3/4`; the log-probabilities are `a − lse a b` and
  `b − lse a b` with `lse a b = log (eᵃ + eᵇ)` written through the larger logit; and the row's loss is
  `−(w₀ · lp₀ · (1 − e^{lp₀})² + w₁ · lp₁ · (1 − e^{lp₁})²)`. The result is the sum of the rows' losses.
-/
import Idealize.ShloMosaic.PureOps.Ideal
import Idealize.ShloMosaic.Lib.ValueIdx

noncomputable section

namespace FocalLoss

open Idealize.ShloMosaic Idealize.ShloMosaic.ValueIdx

/-- The 0/1 indicator of `g ≥ 1/2`. -/
def ind (g : ℝ) : ℝ := if (1 / 2 : ℝ) ≤ g then 1 else 0

/-- `log (eᵃ + eᵇ)`, written through the larger of the two. -/
def lse (a b : ℝ) : ℝ := max a b + Real.log (Real.exp (a - max a b) + Real.exp (b - max a b))

/-- One row's loss, on the reals. -/
def rowLoss (a b g : ℝ) : ℝ :=
  -((((1 - ind g * (1 / 4)) * (3 / 4)) * (a - lse a b)) * ((1 - Real.exp (a - lse a b)) * (1 - Real.exp (a - lse a b)))
    + ((ind g * (1 / 4)) * (b - lse a b)) * ((1 - Real.exp (b - lse a b)) * (1 - Real.exp (b - lse a b))))

/-- The whole loss: the rows' losses summed, of the real parts of the two argument arrays (every entry of which is a
    real under the precondition). -/
def total (x0 : (⟨2, ![16777216, 2]⟩ : Shape).Idx → EReal) (x1 : (⟨1, ![16777216]⟩ : Shape).Idx → EReal) : EReal :=
  ((∑ n : Fin 16777216, rowLoss (x0 (ix2 n (0 : Fin 2))).toReal (x0 (ix2 n (1 : Fin 2))).toReal (x1 (ix1 n)).toReal : ℝ) : EReal)

/-- The kernel's arithmetic on one row, operation by operation on the extended reals: the comparison's bit widened and
    converted, the weights, the log-sum-exp through the maximum, the two log-probabilities, the two focal factors
    (each the product of two equal differences), and the negation written as a subtraction from zero. -/
def kRow (a b g : EReal) : EReal :=
  let t : EReal := ((((Ideal.cmp .oge g (Ideal.ofBits .f32 0x3F000000#32)).setWidth 32).toInt : ℝ) : EReal)
  let oh1 : EReal := t * Ideal.ofBits .f32 0x3E800000#32
  let oh0 : EReal := (Ideal.ofBits .f32 0x3F800000#32 - oh1) * Ideal.ofBits .f32 0x3F400000#32
  let mx : EReal := max a b
  let l : EReal := mx + Ideal.log (Ideal.exp (a - mx) + Ideal.exp (b - mx))
  let lp0 : EReal := a - l
  let lp1 : EReal := b - l
  let f0 : EReal := (Ideal.ofBits .f32 0x3F800000#32 - Ideal.exp lp0) * (Ideal.ofBits .f32 0x3F800000#32 - Ideal.exp lp0)
  let f1 : EReal := (Ideal.ofBits .f32 0x3F800000#32 - Ideal.exp lp1) * (Ideal.ofBits .f32 0x3F800000#32 - Ideal.exp lp1)
  Ideal.ofBits .f32 0x00000000#32 - (((oh0 * lp0) * f0) + ((oh1 * lp1) * f1))

end FocalLoss

end
-- ==== Proof.RowLaw.lean ====
/-
  The row law: the constants the programs spell, as the reals they denote; the comparison's bit as the 0/1
  indicator; and the kernel's arithmetic on one row of real inputs as the real row loss.
-/
import proofs.«132625_j55525337202956_2_alg».proof.Proof.Spec
import Idealize.ShloMosaic.Lib.IdealHost
import Idealize.ShloMosaic.PureOps.Ideal.Laws

noncomputable section

namespace FocalLoss

open Idealize.ShloMosaic Idealize.ShloMosaic.ValueIdx

/-- The pattern `0x3F000000` denotes one half. -/
theorem ofBits_half : Ideal.ofBits .f32 0x3F000000#32 = (((1 : ℝ) / 2 : ℝ) : EReal) := by
  simp [Ideal.ofBits, Ideal.ieee, -EReal.coe_mul]; norm_num

/-- The pattern `0x3E800000` denotes one quarter. -/
theorem ofBits_quarter : Ideal.ofBits .f32 0x3E800000#32 = (((1 : ℝ) / 4 : ℝ) : EReal) := by
  simp [Ideal.ofBits, Ideal.ieee, -EReal.coe_mul]; norm_num

/-- The pattern `0x3F400000` denotes three quarters. -/
theorem ofBits_three_quarters : Ideal.ofBits .f32 0x3F400000#32 = (((3 : ℝ) / 4 : ℝ) : EReal) := by
  simp [Ideal.ofBits, Ideal.ieee, -EReal.coe_mul]; norm_num

/-- The pattern `0x40000000` denotes two. -/
theorem ofBits_two : Ideal.ofBits .f32 0x40000000#32 = ((2 : ℝ) : EReal) := by
  simp [Ideal.ofBits, Ideal.ieee, -EReal.coe_mul]; norm_num

/-- The pattern `0xFF800000` denotes minus infinity. -/
theorem ofBits_neg_inf : Ideal.ofBits .f32 0xFF800000#32 = (⊥ : EReal) := by
  simp [Ideal.ofBits, Ideal.ieee]

/-- The pattern `0x7F800000` denotes plus infinity. -/
theorem ofBits_pos_inf : Ideal.ofBits .f32 0x7F800000#32 = (⊤ : EReal) := by
  simp [Ideal.ofBits, Ideal.ieee]

/-- The real maximum, read in the extended reals. -/
theorem coe_max (a b : ℝ) : ((max a b : ℝ) : EReal) = max (a : EReal) (b : EReal) :=
  EReal.coe_strictMono.monotone.map_max

/-- The comparison `g ≥ 1/2` on two reals is the bit of the real comparison. -/
theorem cmp_oge_coe (g : ℝ) :
    Ideal.cmp .oge (g : EReal) (((1 : ℝ) / 2 : ℝ) : EReal) = BitVec.ofBool (decide ((1 / 2 : ℝ) ≤ g)) := by
  unfold Ideal.cmp
  simp only [EReal.coe_le_coe_iff]

/-- The comparison `g ≥ 1/2`, its bit widened to a word and read as a signed integer, is the indicator. -/
theorem cmp_oge_toInt (g : ℝ) :
    ((((Ideal.cmp .oge (g : EReal) (((1 : ℝ) / 2 : ℝ) : EReal)).setWidth 32).toInt : ℝ)) = ind g := by
  rw [cmp_oge_coe]
  unfold ind
  by_cases h : (1 / 2 : ℝ) ≤ g
  · rw [if_pos h, decide_eq_true h]
    have e : ((BitVec.ofBool true).setWidth 32).toInt = 1 := by decide
    rw [e]; norm_num
  · rw [if_neg h, decide_eq_false h]
    have e : ((BitVec.ofBool false).setWidth 32).toInt = 0 := by decide
    rw [e]; norm_num

/-- The comparison `g ≥ 1/2`, its bit read as a natural number, is the indicator. -/
theorem cmp_oge_toNat (g : ℝ) :
    (((Ideal.cmp .oge (g : EReal) (((1 : ℝ) / 2 : ℝ) : EReal)).toNat : ℝ)) = ind g := by
  rw [cmp_oge_coe]
  unfold ind
  by_cases h : (1 / 2 : ℝ) ≤ g
  · rw [if_pos h, decide_eq_true h]
    have e : (BitVec.ofBool true).toNat = 1 := by decide
    rw [e]; norm_num
  · rw [if_neg h, decide_eq_false h]
    have e : (BitVec.ofBool false).toNat = 0 := by decide
    rw [e]; norm_num

/-- A real to the power two is its product with itself. -/
theorem pow_two_coe (x : ℝ) : Ideal.pow (x : EReal) (Ideal.ofBits .f32 0x40000000#32) = ((x * x : ℝ) : EReal) := by
  rw [ofBits_two, Ideal.pow_coe_coe]
  have e : Real.rpow x 2 = x * x := by
    show x ^ (2 : ℝ) = x * x
    rw [Real.rpow_two, sq]
  rw [e]

/-- The logarithm of a sum of two exponentials is the real logarithm: the sum is positive. -/
theorem log_exp_add_exp (x y : ℝ) :
    Ideal.log (((Real.exp x + Real.exp y : ℝ)) : EReal) = ((Real.log (Real.exp x + Real.exp y) : ℝ) : EReal) := by
  rw [Ideal.log_coe, if_neg (not_le.mpr (by positivity))]

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's arithmetic on one row of real inputs is the real row loss. -/
theorem kRow_coe (a b g : ℝ) : kRow (a : EReal) (b : EReal) (g : EReal) = ((rowLoss a b g : ℝ) : EReal) := by
  unfold kRow
  dsimp only
  rw [ofBits_half, cmp_oge_toInt]
  simp only [ofBits_quarter, ofBits_three_quarters, Ideal.ofBits_one_f32, Ideal.ofBits_zero_f32]
  rw [← EReal.coe_one, ← EReal.coe_zero]
  simp only [← coe_max, ← EReal.coe_sub, ← EReal.coe_add, ← EReal.coe_mul, Ideal.exp_coe, log_exp_add_exp]
  congr 1
  unfold rowLoss lse
  ring

/-! The maximum of two reals against minus infinity, in the orders a reduction may spell it. -/

theorem max_bot_max_coe (a b : ℝ) : max (⊥ : EReal) (max (a : EReal) (b : EReal)) = ((max a b : ℝ) : EReal) := by
  rw [max_eq_right bot_le, coe_max]

theorem max_max_coe_bot (a b : ℝ) : max (max (a : EReal) (b : EReal)) (⊥ : EReal) = ((max a b : ℝ) : EReal) := by
  rw [max_eq_left bot_le, coe_max]

theorem max_max_bot_coe (a b : ℝ) : max (max (⊥ : EReal) (a : EReal)) (b : EReal) = ((max a b : ℝ) : EReal) := by
  rw [max_eq_right (bot_le : (⊥ : EReal) ≤ (a : EReal)), coe_max]

theorem max_coe_max_bot (a b : ℝ) : max (a : EReal) (max (b : EReal) (⊥ : EReal)) = ((max a b : ℝ) : EReal) := by
  rw [max_eq_left (bot_le : (⊥ : EReal) ≤ (b : EReal)), coe_max]

theorem max_coe_max_bot' (a b : ℝ) : max (a : EReal) (max (⊥ : EReal) (b : EReal)) = ((max a b : ℝ) : EReal) := by
  rw [max_eq_right (bot_le : (⊥ : EReal) ≤ (b : EReal)), coe_max]

theorem max_max_coe_bot' (a b : ℝ) : max (max (a : EReal) (⊥ : EReal)) (b : EReal) = ((max a b : ℝ) : EReal) := by
  rw [max_eq_left (bot_le : (⊥ : EReal) ≤ (a : EReal)), coe_max]

end FocalLoss

end
-- ==== Proof.FiniteInputs.lean ====
/-
  From the precondition to the reals: the precondition says that the absolute value of every entry of both argument
  arrays is below plus infinity, all of these conjoined; an extended real whose absolute value is below plus infinity
  is neither infinity, so it is a real.
-/
import proofs.«132625_j55525337202956_2_alg».proof.Pre_finite_inputs
import proofs.«132625_j55525337202956_2_alg».proof.Proof.Gen.Pre_finite_inputs
import proofs.«132625_j55525337202956_2_alg».proof.Proof.RowLaw
import Idealize.ShloMosaic.Lib.ReduceAll
import Idealize.ShloMosaic.Lib.ValueIdx

noncomputable section

namespace FocalLoss

open Idealize.ShloMosaic Idealize.ShloMosaic.ValueIdx

/-- The index set of a scalar has one element. -/
instance subsingleton_scalar_idx : Subsingleton Cert.Pre_finite_inputs.S_.Idx :=
  ⟨fun a b => funext fun d => d.elim0⟩

/-- An extended real whose absolute value `max x (-x)` is below plus infinity is a real. -/
theorem real_of_abs_lt_top (x : EReal) (h : Ideal.cmp .olt (max x (-x)) (⊤ : EReal) = 1#1) :
    ∃ r : ℝ, x = (r : EReal) := by
  induction x using EReal.rec with
  | bot => exfalso; revert h; simp [Ideal.cmp]
  | coe r => exact ⟨r, rfl⟩
  | top => exfalso; revert h; simp [Ideal.cmp]

/-- Under the precondition every entry of both argument arrays is a real. -/
theorem finite_of_pre [Cert.Pre_finite_inputs.Facts]
    (x0 : FVec Ideal Cert.Pre_finite_inputs.S16777216x2 .f32) (x1 : FVec Ideal Cert.Pre_finite_inputs.S16777216 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    refine real_of_abs_lt_top (x0 i) ?_
    rw [← ofBits_pos_inf]
    exact e
  · have e := Host.reduce_andi_all _ _ _ _ _ hb i
    refine real_of_abs_lt_top (x1 i) ?_
    rw [← ofBits_pos_inf]
    exact e

end FocalLoss

end
-- ==== Proof.KLoop.lean ====
/-
  What one grid point of the kernel leaves in its output block, as a value.

  The body walks its 2048-row input blocks in eight tiles of 256 rows. One trip of that loop adds, to the carried
  [1,128] row, the column sums of the tile's 256×128 per-row losses (`tripVal`); the loop's result is the eight
  trips composed from the zero row (`loopVal`). After the loop the body adds the sum of that row's 128 entries into
  entry (0,0) of the output block: onto the zero block at the first point of a core's run (`out_first`), onto what
  the point before left at the later ones (`out_later`).
-/
import proofs.«132625_j55525337202956_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem zeros2 : (![0, 0] : Fin 2 → Nat) = fun _ => 0 := funext fun a => by fin_cases a <;> rfl

/-- Tile `k` of the logits block: rows `256 k … 256 k + 255`. -/
def tile0 (x0 : Vec F S1x2048x256 .f32) (k : Fin k0_t1_loop.trips) : Vec F S1x256x256 .f32 :=
  View.ld x0 (Rect.unit (s := S1x2048x256) (k0_off1 k) S1x256x256.size (k0_off1_inb k))

/-- Tile `k` of the scores block: rows `256 k … 256 k + 255`. -/
def tile1 (x1 : Vec F S1x2048x128 .f32) (k : Fin k0_t1_loop.trips) : Vec F S1x256x128 .f32 :=
  View.ld x1 (Rect.unit (s := S1x2048x128) (k0_off2 k) S1x256x128.size (k0_off2_inb k))

/-- One trip: the carried row plus the column sums of the tile's losses. -/
def tripVal (acc : FVec F S1x128 .f32) (T0 : Vec F S1x256x256 .f32) (T1 : Vec F S1x256x128 .f32) : FVec F S1x128 .f32 :=
  k0_pay3 acc (k0_pay8 T1) (k0_pay11 T0) (k0_pay12 T0) (k0_pay13 T0) (k0_pay14 T0 T1)

/-- The carried row before trip `n`, from the zero row. -/
def loopVal (x0 : Vec F S1x2048x256 .f32) (x1 : Vec F S1x2048x128 .f32) : ℕ → FVec F S1x128 .f32
  | 0 => k0_pay2
  | n + 1 => if h : n < k0_t1_loop.trips then tripVal (loopVal x0 x1 n) (tile0 x0 ⟨n, h⟩) (tile1 x1 ⟨n, h⟩) else loopVal x0 x1 n

/-- The trip the run found is `tripVal` of the two tiles. -/
theorem trip_eq (𝒱 : Variants) (c : Dev nD) (bd : Option 𝒱.V) (i : grid0.Coords) (arg2 : Memref sig .tc .vmem S1x2048x256 .f32) (harg2 : arg2.IsWhole) (arg3 : Memref sig .tc .vmem S1x2048x128 .f32) (harg3 : arg3.IsWhole) (arg4 : Memref sig .tc .vmem S8x128 .f32) (harg4 : arg4.IsWhole)
    (x0 : Vec F S1x2048x256 .f32) (x1 : Vec F S1x2048x128 .f32) (k : Fin k0_t1_loop.trips) (acc : FVec F S1x128 .f32) :
    tripR_k0_t1 (F := F) 𝒱 c bd i arg2 harg2 arg3 harg3 arg4 harg4 (harg2.unread x0) (harg3.unread x1) k acc
      = tripVal acc (tile0 x0 k) (tile1 x1 k) := by
  unfold tripR_k0_t1 trip_k0_t1
  dsimp only
  sl_unfold_run_names
  simp only [View.readAt_eq_ld, harg2.read_unread, harg3.read_unread]
  rfl

/-- The loop's recursion is `loopVal`. -/
theorem st_eq (𝒱 : Variants) (c : Dev nD) (bd : Option 𝒱.V) (i : grid0.Coords) (arg2 : Memref sig .tc .vmem S1x2048x256 .f32) (harg2 : arg2.IsWhole) (arg3 : Memref sig .tc .vmem S1x2048x128 .f32) (harg3 : arg3.IsWhole) (arg4 : Memref sig .tc .vmem S8x128 .f32) (harg4 : arg4.IsWhole)
    (x0 : Vec F S1x2048x256 .f32) (x1 : Vec F S1x2048x128 .f32) :
    ∀ n : ℕ, st_k0_t1 (F := F) 𝒱 c bd i arg2 harg2 arg3 harg3 arg4 harg4 (harg2.unread x0) (harg3.unread x1) k0_pay2 n = loopVal x0 x1 n
  | 0 => rfl
  | n + 1 => by
    rw [st_k0_t1.eq_2, loopVal]
    unfold st_k0_t1Step
    by_cases h : n < k0_t1_loop.trips
    · rw [dif_pos h, dif_pos h, trip_eq, st_eq 𝒱 c bd i arg2 harg2 arg3 harg3 arg4 harg4 x0 x1 n]
    · rw [dif_neg h, dif_neg h, st_eq 𝒱 c bd i arg2 harg2 arg3 harg3 arg4 harg4 x0 x1 n]

/-- A later point of a core's run: the block the point before left, with the loop's total added at entry (0,0). -/
theorem out_later (c : Dev nD) (i : grid0.Coords) (arg2 : Memref sig .tc .vmem S1x2048x256 .f32) (harg2 : arg2.IsWhole) (arg3 : Memref sig .tc .vmem S1x2048x128 .f32) (harg3 : arg3.IsWhole) (arg4 : Memref sig .tc .vmem S8x128 .f32) (harg4 : arg4.IsWhole) (hc0 : ¬cond0_0 i)
    (x0 : Vec F S1x2048x256 .f32) (x1 : Vec F S1x2048x128 .f32) (xo2 : Vec F S8x128 .f32) :
    out0_B_2 c i arg2 harg2 arg3 harg3 arg4 harg4 hc0 x0 x1 xo2 = k0_pay4 (loopVal x0 x1 8) xo2 := by
  unfold out0_B_2
  rw [View.read_writes_eq_canon _ _ _ (cover0_B_2 c i arg2 harg2 arg3 harg3 arg4 harg4 hc0 x0 x1 xo2)]
  unfold kernelRun0_B
  dsimp only
  rw [View.canon_unit_zero zeros2, st_eq]
  simp only [View.readAt_eq_ld, harg4.read_unread, View.ld_unit_zero (S := S8x128) zeros2]
  rfl

/-- The first point of a core's run: the zero block, with the loop's total added at entry (0,0). -/
theorem out_first (c : Dev nD) (i : grid0.Coords) (arg2 : Memref sig .tc .vmem S1x2048x256 .f32) (harg2 : arg2.IsWhole) (arg3 : Memref sig .tc .vmem S1x2048x128 .f32) (harg3 : arg3.IsWhole) (arg4 : Memref sig .tc .vmem S8x128 .f32) (harg4 : arg4.IsWhole) (hc0 : cond0_0 i)
    (x0 : Vec F S1x2048x256 .f32) (x1 : Vec F S1x2048x128 .f32) :
    out0_A_2 c i arg2 harg2 arg3 harg3 arg4 harg4 hc0 x0 x1 = k0_pay4 (loopVal x0 x1 8) k0_pay1 := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S8x128) zeros2, View.readCov_unit_zero (S := S8x128) _ zeros2, st_eq]
  rfl

end Cert.KernelIdeal.KValue

end
-- ==== Proof.KRow.lean ====
/-
  One trip of the kernel's loop, at the ideal instance, entry by entry.

  The tile of logits is a [1,256,256] array whose row `r` holds 128 consecutive (class 0, class 1) pairs: the kernel
  views it as [256,128,2] and slices the last axis, so row `r`, lane `l` of the class-0 plane is entry `(0, r, 2 l)`
  and of the class-1 plane entry `(0, r, 2 l + 1)`. Every later operation is pointwise, so the tile of losses at
  `(r, l)` is the row function `FocalLoss.kRow` of those two entries and the score at `(0, r, l)`; the trip adds, at lane
  `l`, the sum of that column over the 256 rows.
-/
import proofs.«132625_j55525337202956_2_alg».proof.Proof.Gen.KernelIdeal.Frame
import Idealize.ShloMosaic.Lib.Pipeline.Value
import Idealize.ShloMosaic.Lib.Tactic
import proofs.«132625_j55525337202956_2_alg».proof.Proof.KLoop
import proofs.«132625_j55525337202956_2_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

/-- The tile of per-row losses: the trip's pointwise arithmetic before its column sum. -/
def lossTile (T0 : Vec Ideal S1x256x256 .f32) (T1 : Vec Ideal S1x256x128 .f32) : FVec Ideal S256x128 .f32 :=
  subf (broadcast S256x128 (Scalar.ofBits .f32 0x00000000#32))
    (addf (mulf (k0_pay14 T0 T1) (k0_pay12 T0)) (mulf (mulf (k0_pay8 T1) (k0_pay11 T0)) (k0_pay13 T0)))

/-- The class-0 plane at `(r, l)` is the tile's entry `(0, r, 2 l)`. -/
theorem plane0_apply (T0 : Vec Ideal S1x256x256 .f32) (r : Fin 256) (l : Fin 128) (q : Fin 256) (hq : q.val = 2 * l.val) :
    k0_pay6 T0 (ix2 r l) = T0 (ix3 (0 : Fin 1) r q) := by
  unfold k0_pay6 k0_pay5
  refine (shapeCast_apply _ shapeCasts_S256x128x1_S256x128 (ix2 r l) (ix3 r l (0 : Fin 1)) (by
    rw [Shape.rowMajor_val_three, Shape.rowMajor_val_two]
    show (r.val * 128 + l.val) * 1 + 0 = r.val * 128 + l.val
    omega)).trans ?_
  refine (extractStridedSlice_apply _ _ slices_S256x128x2_o0_0_0_S256x128x1 (ix3 r l (0 : Fin 1)) (ix3 r l (0 : Fin 2)) (fun a => by
    match a with
    | ⟨0, _⟩ => show r.val = 0 + r.val; omega
    | ⟨1, _⟩ => show l.val = 0 + l.val; omega
    | ⟨2, _⟩ => show 0 = 0 + 0; rfl)).trans ?_
  refine (shapeCast_apply _ shapeCasts_S256x256_S256x128x2 (ix3 r l (0 : Fin 2)) (ix2 r q) (by
    rw [Shape.rowMajor_val_three, Shape.rowMajor_val_two]
    show r.val * 256 + q.val = (r.val * 128 + l.val) * 2 + 0
    omega)).trans ?_
  exact shapeCast_1ab_ab_apply T0 shapeCasts_S1x256x256_S256x256 r q

/-- The class-1 plane at `(r, l)` is the tile's entry `(0, r, 2 l + 1)`. -/
theorem plane1_apply (T0 : Vec Ideal S1x256x256 .f32) (r : Fin 256) (l : Fin 128) (q : Fin 256) (hq : q.val = 2 * l.val + 1) :
    k0_pay7 T0 (ix2 r l) = T0 (ix3 (0 : Fin 1) r q) := by
  unfold k0_pay7 k0_pay5
  refine (shapeCast_apply _ shapeCasts_S256x128x1_S256x128 (ix2 r l) (ix3 r l (0 : Fin 1)) (by
    rw [Shape.rowMajor_val_three, Shape.rowMajor_val_two]
    show (r.val * 128 + l.val) * 1 + 0 = r.val * 128 + l.val
    omega)).trans ?_
  refine (extractStridedSlice_apply _ _ slices_S256x128x2_o0_0_1_S256x128x1 (ix3 r l (0 : Fin 1)) (ix3 r l (1 : Fin 2)) (fun a => by
    match a with
    | ⟨0, _⟩ => show r.val = 0 + r.val; omega
    | ⟨1, _⟩ => show l.val = 0 + l.val; omega
    | ⟨2, _⟩ => show 1 = 1 + 0; rfl)).trans ?_
  refine (shapeCast_apply _ shapeCasts_S256x256_S256x128x2 (ix3 r l (1 : Fin 2)) (ix2 r q) (by
    rw [Shape.rowMajor_val_three, Shape.rowMajor_val_two]
    show r.val * 256 + q.val = (r.val * 128 + l.val) * 2 + 1
    omega)).trans ?_
  exact shapeCast_1ab_ab_apply T0 shapeCasts_S1x256x256_S256x256 r q

/-- The tile of losses at `(r, l)`: the row function of the two logits and the score of that row and lane. -/
theorem lossTile_apply (T0 : Vec Ideal S1x256x256 .f32) (T1 : Vec Ideal S1x256x128 .f32) (r : Fin 256) (l : Fin 128)
    (q0 q1 : Fin 256) (h0 : q0.val = 2 * l.val) (h1 : q1.val = 2 * l.val + 1) :
    lossTile T0 T1 (ix2 r l)
      = FocalLoss.kRow (T0 (ix3 (0 : Fin 1) r q0)) (T0 (ix3 (0 : Fin 1) r q1)) (T1 (ix3 (0 : Fin 1) r l)) := by
  rw [← plane0_apply T0 r l q0 h0, ← plane1_apply T0 r l q1 h1,
    ← shapeCast_1ab_ab_apply T1 shapeCasts_S1x256x128_S256x128 r l]
  rfl

/-- One trip at lane `l`: the carried entry plus the column's sum of the tile of losses. -/
theorem tripVal_apply (acc : FVec Ideal S1x128 .f32) (T0 : Vec Ideal S1x256x256 .f32) (T1 : Vec Ideal S1x256x128 .f32) (l : Fin 128) :
    tripVal acc T0 T1 (ix2 (0 : Fin 1) l) = acc (ix2 (0 : Fin 1) l) + ∑ r : Fin 256, lossTile T0 T1 (ix2 r l) := by
  show acc (ix2 (0 : Fin 1) l) + shapeCast S1x128 (multiReduction .add [0] S128 (lossTile T0 T1) 0x00000000#32 reduces_S256x128_S128 (.inl rfl) rfl) shapeCasts_S128_S1x128 (ix2 (0 : Fin 1) l) = _
  refine congrArg (acc (ix2 (0 : Fin 1) l) + ·) ?_
  refine (shapeCast_a_1a_apply _ shapeCasts_S128_S1x128 (0 : Fin 1) l).trans ?_
  refine (Ideal.multiReduction_add_single (lossTile T0 T1) 0x00000000#32 reduces_S256x128_S128 (.inl rfl) rfl (ix1 l)).trans ?_
  refine Finset.sum_congr rfl fun r _ => congrArg (lossTile T0 T1) ?_
  funext a
  match a with
  | ⟨0, _⟩ => rfl
  | ⟨1, _⟩ => rfl

end Cert.KernelIdeal.KValue

end
-- ==== Proof.KPoint.lean ====
/-
  One grid point's contribution, at the ideal instance.

  Tile `k` of a 2048-row block is its rows `256 k … 256 k + 255`. The loop's carried row at lane `l` is the sum over
  the tiles walked so far of the tile's column sum at `l` (`loopVal_apply`), from the zero row. After the loop the body
  multiplies the sum of the row's 128 lanes by the 0/1 mask "row 0 and column 0" and adds it to the block it found:
  at entry (0,0) the mask is 1, so the entry grows by the sum over lanes, tiles and tile rows of the losses (`pay4_apply00`).
-/
import proofs.«132625_j55525337202956_2_alg».proof.Proof.Gen.KernelIdeal.Frame
import Idealize.ShloMosaic.Lib.Pipeline.Value
import Idealize.ShloMosaic.Lib.Tactic
import proofs.«132625_j55525337202956_2_alg».proof.Proof.KRow

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

theorem trips8 : k0_t1_loop.trips = 8 := by decide

/-- The loop's two load offsets at trip `k`: row `256 k`, nothing on the other axes. -/
theorem off1_val : ∀ k : Fin k0_t1_loop.trips, k0_off1 k 0 = 0 ∧ k0_off1 k 1 = 256 * k.val ∧ k0_off1 k 2 = 0 := by decide +kernel
theorem off2_val : ∀ k : Fin k0_t1_loop.trips, k0_off2 k 0 = 0 ∧ k0_off2 k 1 = 256 * k.val ∧ k0_off2 k 2 = 0 := by decide +kernel

/-- Row `r` of tile `k` of the logits block is the block's row `256 k + r`. -/
theorem tile0_apply (B0 : Vec Ideal S1x2048x256 .f32) (k : Fin k0_t1_loop.trips) (r : Fin 256) (q : Fin 256) (R : Fin 2048)
    (hR : R.val = 256 * k.val + r.val) : tile0 B0 k (ix3 (0 : Fin 1) r q) = B0 (ix3 (0 : Fin 1) R q) := by
  show B0 ((Rect.unit (s := S1x2048x256) (k0_off1 k) S1x256x256.size (k0_off1_inb k)).emb (ix3 (0 : Fin 1) r q)) = _
  refine congrArg B0 (funext fun a => Fin.ext ?_)
  obtain ⟨h0, h1, h2⟩ := off1_val k
  match a with
  | ⟨0, _⟩ => show k0_off1 k 0 + 1 * 0 = 0; omega
  | ⟨1, _⟩ => show k0_off1 k 1 + 1 * r.val = R.val; omega
  | ⟨2, _⟩ => show k0_off1 k 2 + 1 * q.val = q.val; omega

/-- Row `r` of tile `k` of the scores block is the block's row `256 k + r`. -/
theorem tile1_apply (B1 : Vec Ideal S1x2048x128 .f32) (k : Fin k0_t1_loop.trips) (r : Fin 256) (l : Fin 128) (R : Fin 2048)
    (hR : R.val = 256 * k.val + r.val) : tile1 B1 k (ix3 (0 : Fin 1) r l) = B1 (ix3 (0 : Fin 1) R l) := by
  show B1 ((Rect.unit (s := S1x2048x128) (k0_off2 k) S1x256x128.size (k0_off2_inb k)).emb (ix3 (0 : Fin 1) r l)) = _
  refine congrArg B1 (funext fun a => Fin.ext ?_)
  obtain ⟨h0, h1, h2⟩ := off2_val k
  match a with
  | ⟨0, _⟩ => show k0_off2 k 0 + 1 * 0 = 0; omega
  | ⟨1, _⟩ => show k0_off2 k 1 + 1 * r.val = R.val; omega
  | ⟨2, _⟩ => show k0_off2 k 2 + 1 * l.val = l.val; omega

/-- Tile `k`'s column sum of losses at lane `l` (zero past the last tile). -/
def colSum (B0 : Vec Ideal S1x2048x256 .f32) (B1 : Vec Ideal S1x2048x128 .f32) (l : Fin 128) (k : ℕ) : EReal :=
  if h : k < k0_t1_loop.trips then ∑ r : Fin 256, lossTile (tile0 B0 ⟨k, h⟩) (tile1 B1 ⟨k, h⟩) (ix2 r l) else 0

/-- The carried row before trip `n`, at lane `l`: the column sums of the tiles before `n`. -/
theorem loopVal_apply (B0 : Vec Ideal S1x2048x256 .f32) (B1 : Vec Ideal S1x2048x128 .f32) (l : Fin 128) :
    ∀ n : ℕ, loopVal B0 B1 n (ix2 (0 : Fin 1) l) = ∑ k ∈ Finset.range n, colSum B0 B1 l k
  | 0 => by
    rw [Finset.sum_range_zero]
    show Ideal.ofBits .f32 0x00000000#32 = 0
    exact Ideal.ofBits_zero_f32
  | n + 1 => by
    rw [Finset.sum_range_succ, ← loopVal_apply B0 B1 l n, loopVal]
    unfold colSum
    by_cases h : n < k0_t1_loop.trips
    · rw [dif_pos h, dif_pos h, tripVal_apply]
    · rw [dif_neg h, dif_neg h, add_zero]

/-- The 0/1 mask of entry (0,0) of an [8,128] block, as the body builds it from two iotas. -/
def maskBlock : FVec Ideal S8x128 .f32 :=
  sitofp .f32 (extui 32 (andi (cmpi .eq (iota .tc S8x128 32 [0] iota_S8x128_d0_w32) (broadcast S8x128 0#32))
    (cmpi .eq (iota .tc S8x128 32 [1] iota_S8x128_d1_w32) (broadcast S8x128 0#32))) natLt_1_32)

/-- The sum of the carried row's lanes, spread over an [8,128] block. -/
def totalBlock (v5 : FVec Ideal S1x128 .f32) : FVec Ideal S8x128 .f32 :=
  broadcastTo S8x128 (shapeCast S1x1 (shapeCast S1x1 (multiReduction .add [1] S1 v5 0x00000000#32 reduces_S1x128_S1 (.inl rfl) rfl)
    shapeCasts_S1_S1x1) shapeCasts_S1x1_S1x1) broadcasts_S1x1_S8x128

theorem pay4_eq (v5 : FVec Ideal S1x128 .f32) (xo : Vec Ideal S8x128 .f32) :
    k0_pay4 v5 xo = addf (shapeCast S8x128 xo shapeCasts_S8x128_S8x128) (mulf maskBlock (totalBlock v5)) := rfl

theorem mask00 : maskBlock (ix2 (0 : Fin 8) (0 : Fin 128)) = 1 := by
  unfold maskBlock
  show ((((andi (cmpi .eq (iota .tc S8x128 32 [0] iota_S8x128_d0_w32) (broadcast S8x128 0#32))
    (cmpi .eq (iota .tc S8x128 32 [1] iota_S8x128_d1_w32) (broadcast S8x128 0#32)) (ix2 (0 : Fin 8) (0 : Fin 128))).setWidth 32).toInt : ℝ) : EReal) = 1
  have e : andi (cmpi .eq (iota .tc S8x128 32 [0] iota_S8x128_d0_w32) (broadcast S8x128 0#32))
      (cmpi .eq (iota .tc S8x128 32 [1] iota_S8x128_d1_w32) (broadcast S8x128 0#32)) (ix2 (0 : Fin 8) (0 : Fin 128)) = 1#1 := by
    show IntOp.andi (IntOp.cmpi .eq (iota .tc S8x128 32 [0] iota_S8x128_d0_w32 (ix2 (0 : Fin 8) (0 : Fin 128))) 0#32)
      (IntOp.cmpi .eq (iota .tc S8x128 32 [1] iota_S8x128_d1_w32 (ix2 (0 : Fin 8) (0 : Fin 128))) 0#32) = 1#1
    rw [iota_single_apply, iota_single_apply]
    rfl
  rw [e]
  norm_num

theorem totalBlock00 (v5 : FVec Ideal S1x128 .f32) :
    totalBlock v5 (ix2 (0 : Fin 8) (0 : Fin 128)) = ∑ l : Fin 128, v5 (ix2 (0 : Fin 1) l) := by
  unfold totalBlock
  refine (broadcastTo_apply _ broadcasts_S1x1_S8x128 (ix2 (0 : Fin 8) (0 : Fin 128)) (ix2 (0 : Fin 1) (0 : Fin 1)) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl])).trans ?_
  rw [shapeCast_self]
  refine (shapeCast_a_1a_apply _ shapeCasts_S1_S1x1 (0 : Fin 1) (0 : Fin 1)).trans ?_
  refine (Ideal.multiReduction_add_single v5 0x00000000#32 reduces_S1x128_S1 (.inl rfl) rfl (ix1 (0 : Fin 1))).trans ?_
  refine Finset.sum_congr rfl fun l _ => congrArg v5 ?_
  funext a
  match a with
  | ⟨0, _⟩ => rfl
  | ⟨1, _⟩ => rfl

/-- Entry (0,0) after the body: what the block held there, plus the sum of the carried row's lanes. -/
theorem pay4_apply00 (v5 : FVec Ideal S1x128 .f32) (xo : Vec Ideal S8x128 .f32) :
    k0_pay4 v5 xo (ix2 (0 : Fin 8) (0 : Fin 128)) = xo (ix2 (0 : Fin 8) (0 : Fin 128)) + ∑ l : Fin 128, v5 (ix2 (0 : Fin 1) l) := by
  rw [pay4_eq, shapeCast_self]
  show xo (ix2 (0 : Fin 8) (0 : Fin 128)) + maskBlock (ix2 (0 : Fin 8) (0 : Fin 128)) * totalBlock v5 (ix2 (0 : Fin 8) (0 : Fin 128)) = _
  rw [mask00, totalBlock00, one_mul]

/-- One grid point's total: over lanes, tiles and tile rows, the losses of its two blocks. -/
def ptTotal (B0 : Vec Ideal S1x2048x256 .f32) (B1 : Vec Ideal S1x2048x128 .f32) : EReal :=
  ∑ l : Fin 128, ∑ k ∈ Finset.range 8, colSum B0 B1 l k

theorem out_later00 (B0 : Vec Ideal S1x2048x256 .f32) (B1 : Vec Ideal S1x2048x128 .f32) (xo : Vec Ideal S8x128 .f32) :
    k0_pay4 (loopVal B0 B1 8) xo (ix2 (0 : Fin 8) (0 : Fin 128)) = xo (ix2 (0 : Fin 8) (0 : Fin 128)) + ptTotal B0 B1 := by
  rw [pay4_apply00]
  exact congrArg (_ + ·) (Finset.sum_congr rfl fun l _ => loopVal_apply B0 B1 l 8)

theorem out_first00 (B0 : Vec Ideal S1x2048x256 .f32) (B1 : Vec Ideal S1x2048x128 .f32) :
    k0_pay4 (loopVal B0 B1 8) (k0_pay1 (F := Ideal)) (ix2 (0 : Fin 8) (0 : Fin 128)) = ptTotal B0 B1 := by
  rw [out_later00]
  show Ideal.ofBits .f32 0x00000000#32 + _ = _
  rw [Ideal.ofBits_zero_f32, zero_add]

end Cert.KernelIdeal.KValue

end
-- ==== Proof.KGrid.lean ====
/-
  The result array after the whole grid, at the ideal instance.

  The grid is 2 × 32: point `t` works for core `t / 32` on block `t % 32` of that core's half. The [8,128] output block
  of core `c` is reset at the core's first point, grows at entry (0,0) by each point's total, and is written back to rows
  `8 c … 8 c + 7` of the [16,128] result after the core's last point. So entry (0,0) of the staging block after point `t`
  is the sum of the totals of the points `32 (t / 32) … t` (`outs00`), and the result array's rows `8 c …` hold the
  staging block as the core's last point `32 c + 31` left it (`final_arr`).
-/
import proofs.«132625_j55525337202956_2_alg».proof.Proof.Gen.KernelIdeal.Frame
import Idealize.ShloMosaic.Lib.Pipeline.Value
import Idealize.ShloMosaic.Lib.Tactic
import proofs.«132625_j55525337202956_2_alg».proof.Proof.KPoint

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

variable (m : (ℓ : Loc nD τ sig) → Buf (Elt Ideal) ℓ) (ρ : Dev nD → PrngReg)

/-- Point `n`'s total (zero past the grid). -/
def ptAt (c : Dev nD) (n : ℕ) : EReal :=
  if h : n < cfg0.N then ptTotal (iblk m c 0 ⟨n, h⟩) (iblk m c 1 ⟨n, h⟩) else 0

/-- Entry (0,0) of the output's staging block after point `n`: the totals of the points of `n`'s run so far. -/
theorem outs00 (c : Dev nD) : ∀ (n : ℕ) (h : n < cfg0.N),
    outsAt0 m c n h (ix2 (0 : Fin 8) (0 : Fin 128)) = ∑ s ∈ Finset.range (n % 32 + 1), ptAt m c (32 * (n / 32) + s)
  | 0, h => by
    rw [outsAt0_A m c ⟨0, h⟩ rfl, out_first, out_first00]
    show _ = ∑ s ∈ Finset.range 1, ptAt m c (0 + s)
    rw [Finset.sum_range_one]
    unfold ptAt
    rw [dif_pos (by exact h)]
  | n + 1, h => by
    have hN : cfg0.N = 64 := N_0
    by_cases h0 : (n + 1) % 32 = 0
    · rw [outsAt0_A m c ⟨n + 1, h⟩ h0, out_first, out_first00, h0, Finset.sum_range_one]
      have e : 32 * ((n + 1) / 32) + 0 = n + 1 := by omega
      rw [e]
      unfold ptAt
      rw [dif_pos h]
    · rw [outsAt0_B m c ⟨n + 1, h⟩ h0, out_later, out_later00]
      show outsAt0 m c n _ (ix2 (0 : Fin 8) (0 : Fin 128)) + _ = _
      rw [outs00 c n (Nat.lt_of_succ_lt h)]
      have e1 : (n + 1) % 32 = n % 32 + 1 := by omega
      have e2 : (n + 1) / 32 = n / 32 := by omega
      rw [e1, e2, Finset.sum_range_succ _ (n % 32 + 1)]
      have e3 : 32 * (n / 32) + (n % 32 + 1) = n + 1 := by omega
      rw [e3]
      refine congrArg (_ + ·) ?_
      unfold ptAt
      rw [dif_pos h]

/-- The staging block after point `n`, as a total function of `n`. -/
def outsN (c : Dev nD) (n : ℕ) : Vec Ideal S8x128 .f32 :=
  if h : n < cfg0.N then outsAt0 m c n h else fun _ => 0

/-- The result array: rows `8 q … 8 q + 7` hold the staging block after point `32 q + 31`. -/
def resultArr (c : Dev nD) : S16x128.Idx → EReal :=
  fun i => outsN m c (32 * ((i 0).val / 8) + 31) (ix2 (⟨(i 0).val % 8, Nat.mod_lt _ (by decide)⟩ : Fin 8) (⟨(i 1).val, (i 1).isLt⟩ : Fin 128))

/-- The output window's block index at point `t`: the core's number on the rows, nothing on the columns. -/
theorem idx_facts2 : ∀ t : Fin cfg0.N, win0_2.index t (0 : Fin 2) = t.val / 32 ∧ win0_2.index t (1 : Fin 2) = 0 :=
  (by decide +kernel : ∀ t : Fin grid0.N, _)

/-- What a writing-back point writes is its block of `resultArr`. -/
theorem flushed_eq (c : Dev nD) (t : Fin cfg0.N) (hf : (cfg0.win 2).flush t = true) :
    (dats m 0 c).flushed 2 t = ((cfg0.win 2).blk t).view.read (Elt Ideal) (resultArr m c) := by
  have h31 : t.val % 32 = 31 := (flush0_2 t).mp hf
  have hN : t.val < 64 := lt_of_lt_of_eq t.isLt (show cfg0.N = 64 from N_0)
  obtain ⟨e0, e1⟩ := idx_facts2 t
  show (cfg0.win 2).cut (grid0.coords t) ((dats m 0 c).after 2 t) = _
  rw [after0_2]
  funext j
  show outsAt0 m c t.val t.isLt j = resultArr m c (((cfg0.win 2).blk t).view.emb j)
  have hj0 : (j 0).val < 8 := (j 0).isLt
  have hj1 : (j 1).val < 128 := (j 1).isLt
  have a0 : ((((cfg0.win 2).blk t).view.emb j) 0).val = t.val / 32 * 8 + (j 0).val := by
    show win0_2.index t (0 : Fin 2) * 8 + 1 * (j 0).val = _
    rw [e0]; omega
  have a1 : ((((cfg0.win 2).blk t).view.emb j) 1).val = (j 1).val := by
    show win0_2.index t (1 : Fin 2) * 128 + 1 * (j 1).val = _
    rw [e1]; omega
  unfold resultArr
  have b0 : 32 * (((((cfg0.win 2).blk t).view.emb j) 0).val / 8) + 31 = t.val := by rw [a0]; omega
  have b1 : ((((cfg0.win 2).blk t).view.emb j) 0).val % 8 = (j 0).val := by rw [a0]; omega
  have key : ∀ (n : ℕ) (p : Fin 8) (q : Fin 128), n = t.val → p.val = (j 0).val → q.val = (j 1).val →
      outsAt0 m c t.val t.isLt j = outsN m c n (ix2 p q) := by
    intro n p q hn hp hq
    subst hn
    unfold outsN
    rw [dif_pos t.isLt]
    refine congrArg _ ?_
    funext a
    match a with
    | ⟨0, _⟩ => exact Fin.ext hp.symm
    | ⟨1, _⟩ => exact Fin.ext hq.symm
  exact key _ _ _ b0 b1 a1

/-- An index of the result array is in point `t`'s block iff each coordinate is in the block's range. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The two writing-back points cover the result array. -/
theorem covered (i : S16x128.Idx) : ∃ t : Fin cfg0.N, (cfg0.win 2).flush t = true ∧ i ∈ ((cfg0.win 2).blk t).view.set := by
  have hN : cfg0.N = 64 := N_0
  have hi0 : (i 0).val < 16 := (i 0).isLt
  have hi1 : (i 1).val < 128 := (i 1).isLt
  refine ⟨⟨32 * ((i 0).val / 8) + 31, by omega⟩, (flush0_2 _).mpr (by show (32 * ((i 0).val / 8) + 31) % 32 = 31; omega), ?_⟩
  rw [mem_blk2]
  obtain ⟨e0, e1⟩ := idx_facts2 ⟨32 * ((i 0).val / 8) + 31, by omega⟩
  intro a
  match a with
  | ⟨0, _⟩ =>
    show win0_2.index _ (0 : Fin 2) * 8 ≤ (i 0).val ∧ (i 0).val < win0_2.index _ (0 : Fin 2) * 8 + 8
    rw [e0]; show (32 * ((i 0).val / 8) + 31) / 32 * 8 ≤ (i 0).val ∧ (i 0).val < (32 * ((i 0).val / 8) + 31) / 32 * 8 + 8
    omega
  | ⟨1, _⟩ =>
    show win0_2.index _ (1 : Fin 2) * 128 ≤ (i 1).val ∧ (i 1).val < win0_2.index _ (1 : Fin 2) * 128 + 128
    rw [e1]; omega

/-- The result array after the run. -/
theorem final_arr (c : Dev nD) : (dats m 0 c).arrAt 2 cfg0.N = resultArr m c :=
  (dats m 0 c).arrAt_eq_of_cover 2 (resultArr m c) (flushed_eq m c) (covered)

/-- Its entry (0,0): the first core's 32 point totals. -/
theorem result00 (c : Dev nD) : resultArr m c (ix2 (0 : Fin 16) (0 : Fin 128)) = ∑ s ∈ Finset.range 32, ptAt m c s := by
  have hN : cfg0.N = 64 := N_0
  show outsN m c 31 (ix2 (⟨0, _⟩ : Fin 8) (⟨0, _⟩ : Fin 128)) = _
  unfold outsN
  rw [dif_pos (by omega)]
  refine (outs00 m c 31 (by omega)).trans ?_
  refine Finset.sum_congr rfl fun s _ => ?_
  show ptAt m c (0 + s) = _
  rw [Nat.zero_add]

/-- Its entry (8,0): the second core's 32 point totals. -/
theorem result80 (c : Dev nD) : resultArr m c (ix2 (8 : Fin 16) (0 : Fin 128)) = ∑ s ∈ Finset.range 32, ptAt m c (32 + s) := by
  have hN : cfg0.N = 64 := N_0
  show outsN m c 63 (ix2 (⟨0, _⟩ : Fin 8) (⟨0, _⟩ : Fin 128)) = _
  unfold outsN
  rw [dif_pos (by omega)]
  exact outs00 m c 63 (by omega)

end Cert.KernelIdeal.KValue

end
-- ==== Proof.KTotal.lean ====
/-
  A grid point's total as a sum of row losses of its two blocks.

  For blocks whose entries are read by `f0` (logits: row, column) and `f1` (scores: row, lane), the point's total is the
  sum over lanes `l`, tiles `k` and tile rows `r` of the row function at block row `256 k + r`: its two logits sit in
  columns `2 l` and `2 l + 1`, its score in lane `l`.
-/
import proofs.«132625_j55525337202956_2_alg».proof.Proof.Gen.KernelIdeal.Frame
import Idealize.ShloMosaic.Lib.Pipeline.Value
import Idealize.ShloMosaic.Lib.Tactic
import proofs.«132625_j55525337202956_2_alg».proof.Proof.KPoint

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

theorem ptTotal_eq (B0 : Vec Ideal S1x2048x256 .f32) (B1 : Vec Ideal S1x2048x128 .f32)
    (f0 : Fin 2048 → Fin 256 → EReal) (f1 : Fin 2048 → Fin 128 → EReal)
    (hB0 : ∀ (R : Fin 2048) (q : Fin 256), B0 (ix3 (0 : Fin 1) R q) = f0 R q)
    (hB1 : ∀ (R : Fin 2048) (l : Fin 128), B1 (ix3 (0 : Fin 1) R l) = f1 R l) :
    ptTotal B0 B1 = ∑ l : Fin 128, ∑ k : Fin 8, ∑ r : Fin 256,
      FocalLoss.kRow (f0 ⟨256 * k.val + r.val, by omega⟩ ⟨2 * l.val, by omega⟩) (f0 ⟨256 * k.val + r.val, by omega⟩ ⟨2 * l.val + 1, by omega⟩)
        (f1 ⟨256 * k.val + r.val, by omega⟩ l) := by
  unfold ptTotal
  refine Finset.sum_congr rfl fun l _ => ?_
  rw [Finset.sum_range]
  refine Finset.sum_congr rfl fun k _ => ?_
  have hk : k.val < k0_t1_loop.trips := by rw [trips8]; exact k.isLt
  unfold colSum
  rw [dif_pos hk]
  refine Finset.sum_congr rfl fun r _ => ?_
  rw [lossTile_apply (tile0 B0 ⟨k.val, hk⟩) (tile1 B1 ⟨k.val, hk⟩) r l ⟨2 * l.val, by omega⟩ ⟨2 * l.val + 1, by omega⟩ rfl rfl,
    tile0_apply B0 ⟨k.val, hk⟩ r ⟨2 * l.val, by omega⟩ ⟨256 * k.val + r.val, by omega⟩ rfl,
    tile0_apply B0 ⟨k.val, hk⟩ r ⟨2 * l.val + 1, by omega⟩ ⟨256 * k.val + r.val, by omega⟩ rfl,
    tile1_apply B1 ⟨k.val, hk⟩ r l ⟨256 * k.val + r.val, by omega⟩ rfl, hB0, hB0, hB1]

end Cert.KernelIdeal.KValue

end
-- ==== Proof.KBlocks.lean ====
/-
  Where the kernel's input blocks come from. Before the region the two argument arrays are reshaped: the logits
  [16777216, 2] to [2, 65536, 256] and the scores [16777216] to [2, 65536, 128], both in row-major order. At grid
  point `t` the region reads, of each reshaped array, the block of 2048 rows number `t mod 32` of half `t / 32`.
-/
import proofs.«132625_j55525337202956_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

variable (m : (ℓ : Loc nD τ sig) → Buf (Elt Ideal) ℓ)

/-- The region finds the first window's array as the row-major reshape of the logits. -/
theorem V_main_v0 (c : Dev nD) :
    (V m c main_v0 : S2x65536x256.Idx → EReal)
      = shapeCast S2x65536x256 (m ((c : Thread nD τ).loc main_arg0)) shapeCasts_S16777216x2_S2x65536x256 := by
  show StableHlo.after hostOps0 (fun b => m (c, b)) (Proc.devRef .tc main_v0) = _
  after_results
  rfl

/-- The region finds the second window's array as the row-major reshape of the scores. -/
theorem V_main_v1 (c : Dev nD) :
    (V m c main_v1 : S2x65536x128.Idx → EReal)
      = shapeCast S2x65536x128 (m ((c : Thread nD τ).loc main_arg1)) shapeCasts_S16777216_S2x65536x128 := by
  show StableHlo.after hostOps0 (fun b => m (c, b)) (Proc.devRef .tc main_v1) = _
  after_results
  rfl

/-- The reshaped logits at `(c', R', q)` are entry `b` of row `n` where `2 n + b = (65536 c' + R') · 256 + q`. -/
theorem reshaped0_apply (x : S16777216x2.Idx → EReal) (c' : Fin 2) (R' : Fin 65536) (q : Fin 256) (n : Fin 16777216) (b : Fin 2)
    (h : n.val * 2 + b.val = (c'.val * 65536 + R'.val) * 256 + q.val) :
    shapeCast S2x65536x256 x shapeCasts_S16777216x2_S2x65536x256 (ix3 c' R' q) = x (ix2 n b) := by
  refine shapeCast_apply x _ (ix3 c' R' q) (ix2 n b) ?_
  rw [Shape.rowMajor_val_two, Shape.rowMajor_val_three]
  exact h

/-- The reshaped scores at `(c', R', l)` are the score of row `(65536 c' + R') · 128 + l`. -/
theorem reshaped1_apply (x : S16777216.Idx → EReal) (c' : Fin 2) (R' : Fin 65536) (l : Fin 128) (n : Fin 16777216)
    (h : n.val = (c'.val * 65536 + R'.val) * 128 + l.val) :
    shapeCast S2x65536x128 x shapeCasts_S16777216_S2x65536x128 (ix3 c' R' l) = x (ix1 n) := by
  refine shapeCast_apply x _ (ix3 c' R' l) (ix1 n) ?_
  rw [Shape.rowMajor_val_one, Shape.rowMajor_val_three]
  exact h

/-- The first window's block index at grid point `t`: half `t / 32`, block `t mod 32`, all columns. -/
theorem idx_facts0 : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, _)

/-- The second window's block index at grid point `t`: the same. -/
theorem idx_facts1 : ∀ t : Fin cfg0.N, win0_1.index t (0 : Fin 3) = t.val / 32 ∧ win0_1.index t (1 : Fin 3) = t.val % 32
    ∧ win0_1.index t (2 : Fin 3) = 0 :=
  (by decide +kernel : ∀ t : Fin grid0.N, _)

/-- Row `R`, column `q` of the logits block at point `t` is the reshaped logits at half `t / 32`, row
    `2048 (t mod 32) + R`, column `q`. -/
theorem iblk0_apply (c : Dev nD) (t : Fin cfg0.N) (R : Fin 2048) (q : Fin 256) (c' : Fin 2) (R' : Fin 65536)
    (hc : c'.val = t.val / 32) (hR : R'.val = 2048 * (t.val % 32) + R.val) :
    iblk m c 0 t (ix3 (0 : Fin 1) R q) = V m c main_v0 (ix3 c' R' q) := by
  show V m c main_v0 (((cfg0.win 0).blk t).view.emb (ix3 (0 : Fin 1) R q)) = V m c main_v0 (ix3 c' R' q)
  refine congrArg (V m c main_v0) (funext fun a => Fin.ext ?_)
  obtain ⟨e0, e1, e2⟩ := idx_facts0 t
  match a with
  | ⟨0, _⟩ => show win0_0.index t (0 : Fin 3) * 1 + 1 * 0 = c'.val; omega
  | ⟨1, _⟩ => show win0_0.index t (1 : Fin 3) * 2048 + 1 * R.val = R'.val; omega
  | ⟨2, _⟩ => show win0_0.index t (2 : Fin 3) * 256 + 1 * q.val = q.val; omega

/-- Row `R`, lane `l` of the scores block at point `t` is the reshaped scores at half `t / 32`, row
    `2048 (t mod 32) + R`, lane `l`. -/
theorem iblk1_apply (c : Dev nD) (t : Fin cfg0.N) (R : Fin 2048) (l : Fin 128) (c' : Fin 2) (R' : Fin 65536)
    (hc : c'.val = t.val / 32) (hR : R'.val = 2048 * (t.val % 32) + R.val) :
    iblk m c 1 t (ix3 (0 : Fin 1) R l) = V m c main_v1 (ix3 c' R' l) := by
  show V m c main_v1 (((cfg0.win 1).blk t).view.emb (ix3 (0 : Fin 1) R l)) = V m c main_v1 (ix3 c' R' l)
  refine congrArg (V m c main_v1) (funext fun a => Fin.ext ?_)
  obtain ⟨e0, e1, e2⟩ := idx_facts1 t
  match a with
  | ⟨0, _⟩ => show win0_1.index t (0 : Fin 3) * 1 + 1 * 0 = c'.val; omega
  | ⟨1, _⟩ => show win0_1.index t (1 : Fin 3) * 2048 + 1 * R.val = R'.val; omega
  | ⟨2, _⟩ => show win0_1.index t (2 : Fin 3) * 128 + 1 * l.val = l.val; omega

end Cert.KernelIdeal.KValue

end
-- ==== Proof.KTail.lean ====
/-
  The host operations after the region: of the [16, 128] result array they take entries (0, 0) and (8, 0) — the two
  cores' partial sums —, add them, and multiply by the constant one.
-/
import proofs.«132625_j55525337202956_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost
import Idealize.ShloMosaic.Lib.Tactic

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

variable (m : (ℓ : Loc nD τ sig) → Buf (Elt Ideal) ℓ)

/-- The seven operations' arithmetic on any [16, 128] array: entries (0, 0) and (8, 0), added, times one. -/
theorem tail_val (A : S16x128.Idx → EReal) (j : S_.Idx) :
    (mulf (addf (shapeCast S_ (extractStridedSlice S1x1 ![0, 0] A slices_S16x128_S1x1_0_0) shapeCasts_S1x1_S_)
                (shapeCast S_ (extractStridedSlice S1x1 ![8, 0] A slices_S16x128_S1x1_8_0) shapeCasts_S1x1_S_))
          (constant S_ .f32 0x3F800000#32) : FVec Ideal S_ .f32) j
      = (A (ix2 (0 : Fin 16) (0 : Fin 128)) + A (ix2 (8 : Fin 16) (0 : Fin 128))) * 1 := by
  have hpos : (S1x1.rowMajor (ix2 (0 : Fin 1) (0 : Fin 1))).val = (S_.rowMajor j).val := by
    rw [Shape.rowMajor_val_two]
    show 0 * 1 + 0 = (Shape.rowMajorPi S_.size j).val
    rw [Shape.rowMajorPi_zero]
  have k0 : shapeCast S_ (extractStridedSlice S1x1 ![0, 0] A slices_S16x128_S1x1_0_0) shapeCasts_S1x1_S_ j
      = A (ix2 (0 : Fin 16) (0 : Fin 128)) := by
    refine (shapeCast_apply _ shapeCasts_S1x1_S_ j (ix2 (0 : Fin 1) (0 : Fin 1)) hpos).trans ?_
    refine extractStridedSlice_apply ![0, 0] A slices_S16x128_S1x1_0_0 _ _ ?_
    intro a
    match a with
    | ⟨0, _⟩ => rfl
    | ⟨1, _⟩ => rfl
  have k8 : shapeCast S_ (extractStridedSlice S1x1 ![8, 0] A slices_S16x128_S1x1_8_0) shapeCasts_S1x1_S_ j
      = A (ix2 (8 : Fin 16) (0 : Fin 128)) := by
    refine (shapeCast_apply _ shapeCasts_S1x1_S_ j (ix2 (0 : Fin 1) (0 : Fin 1)) hpos).trans ?_
    refine extractStridedSlice_apply ![8, 0] A slices_S16x128_S1x1_8_0 _ _ ?_
    intro a
    match a with
    | ⟨0, _⟩ => rfl
    | ⟨1, _⟩ => rfl
  show (shapeCast S_ (extractStridedSlice S1x1 ![0, 0] A slices_S16x128_S1x1_0_0) shapeCasts_S1x1_S_ j
      + shapeCast S_ (extractStridedSlice S1x1 ![8, 0] A slices_S16x128_S1x1_8_0) shapeCasts_S1x1_S_ j)
      * Ideal.ofBits .f32 0x3F800000#32 = _
  rw [k0, k8, Ideal.ofBits_one_f32]

/-- Entry `(i, l)` of the region's result array after the last grid point. -/
def resAt (c : Dev nD) (i : Fin 16) (l : Fin 128) : EReal := (dats m 0 c).arrAt 2 cfg0.N (ix2 i l)

theorem resAt_def (c : Dev nD) (i : Fin 16) (l : Fin 128) :
    resAt m c i l = (dats m 0 c).arrAt 2 cfg0.N (ix2 i l) := rfl

/-- What the host operations after the region leave in the result: the sum of entries (0, 0) and (8, 0) of the
    region's result array, times one. -/
theorem tail_eq (c : Dev nD) :
    (Pipeline.afterTail₀ cfgs (dats m) 0 (V0 m) [hostOps1] c main_v8 : S_.Idx → EReal)
      = fun _ => (resAt m c 0 0 + resAt m c 8 0) * 1 := by
  unfold Pipeline.afterTail₀
  show StableHlo.after hostOps1 _ (Proc.devRef .tc main_v8) = _
  after_results
  have hA : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [hA]
  funext j
  exact tail_val ((dats m 0 c).arrAt 2 cfg0.N) j

end Cert.KernelIdeal.KValue

end
-- ==== Proof.SumRegroup.lean ====
/-
  Regrouping the sum over all rows: a row number below 2 · 32 · 8 · 256 · 128 is written uniquely as
  `((c · 65536 + (g · 2048 + (k · 256 + r))) · 128 + l`, so the sum over the rows is the iterated sum over the five
  digits; finite sums commute, so the digit `l` may be summed before `k` and `r`.
-/
import Mathlib.Algebra.BigOperators.Fin
import Mathlib.Data.Real.Basic
import Mathlib.Tactic.Ring
import Mathlib.Tactic.NormNum

namespace FocalLoss

/-- A sum over the numbers below `a · b` is the double sum over quotient and remainder by `b`. -/
theorem sum_fin_mul {N : ℕ} (a b : ℕ) (h : N = a * b) (f : ℕ → ℝ) :
    ∑ n : Fin N, f n.val = ∑ i : Fin a, ∑ j : Fin b, f (i.val * b + j.val) := by
  subst h
  rw [← finProdFinEquiv.sum_comp, Fintype.sum_prod_type]
  refine Finset.sum_congr rfl fun i _ => Finset.sum_congr rfl fun j _ => ?_
  congr 1
  show j.val + b * i.val = i.val * b + j.val
  ring

/-- The sum over all rows, by the five digits of the row number. -/
theorem sum_regroup (f : ℕ → ℝ) :
    ∑ n : Fin 16777216, f n.val
      = ∑ c : Fin 2, ∑ g : Fin 32, ∑ l : Fin 128, ∑ k : Fin 8, ∑ r : Fin 256,
          f ((c.val * 65536 + (g.val * 2048 + (k.val * 256 + r.val))) * 128 + l.val) := by
  refine (sum_fin_mul 131072 128 (by norm_num) f).trans ?_
  refine (sum_fin_mul 2 65536 (by norm_num) (fun m => ∑ l : Fin 128, f (m * 128 + l.val))).trans ?_
  refine Finset.sum_congr rfl fun c _ => ?_
  refine (sum_fin_mul 32 2048 (by norm_num)
    (fun q => ∑ l : Fin 128, f ((c.val * 65536 + q) * 128 + l.val))).trans ?_
  refine Finset.sum_congr rfl fun g _ => ?_
  refine (sum_fin_mul 8 256 (by norm_num)
    (fun s => ∑ l : Fin 128, f ((c.val * 65536 + (g.val * 2048 + s)) * 128 + l.val))).trans ?_
  refine (Finset.sum_congr rfl fun k _ => Finset.sum_comm).trans ?_
  exact Finset.sum_comm

end FocalLoss
-- ==== Proof.Grouped.lean ====
/-
  The kernel's grouped sum is the whole loss: under the precondition every entry is a real, so the kernel's row
  function at a row is the real row loss there; the coercion of the reals into the extended reals commutes with finite
  sums; and the five digits `c, g, k, r, l` of a row number enumerate every row exactly once.
-/
import proofs.«132625_j55525337202956_2_alg».proof.Proof.Spec
import proofs.«132625_j55525337202956_2_alg».proof.Proof.RowLaw
import proofs.«132625_j55525337202956_2_alg».proof.Proof.SumRegroup
import Idealize.ShloMosaic.Lib.ValueIdx

noncomputable section

namespace FocalLoss

open Idealize.ShloMosaic Idealize.ShloMosaic.ValueIdx

/-- The row number with the five digits `c, g, k, r, l`: `(c · 65536 + (g · 2048 + (k · 256 + r))) · 128 + l`. -/
def rowIdx (c : Fin 2) (g : Fin 32) (k : Fin 8) (r : Fin 256) (l : Fin 128) : Fin 16777216 :=
  ⟨(c.val * 65536 + (g.val * 2048 + (k.val * 256 + r.val))) * 128 + l.val, by omega⟩

/-- The kernel's row function at row `n` of the two argument arrays. -/
def kRowAt (x0 : (⟨2, ![16777216, 2]⟩ : Shape).Idx → EReal) (x1 : (⟨1, ![16777216]⟩ : Shape).Idx → EReal)
    (n : Fin 16777216) : EReal :=
  kRow (x0 (ix2 n (0 : Fin 2))) (x0 (ix2 n (1 : Fin 2))) (x1 (ix1 n))

/-- The real row loss at row `n`, of the real parts of the entries. -/
def rowLossAt (x0 : (⟨2, ![16777216, 2]⟩ : Shape).Idx → EReal) (x1 : (⟨1, ![16777216]⟩ : Shape).Idx → EReal)
    (n : Fin 16777216) : ℝ :=
  rowLoss (x0 (ix2 n (0 : Fin 2))).toReal (x0 (ix2 n (1 : Fin 2))).toReal (x1 (ix1 n)).toReal

/-- The same, as a function of the row number, zero beyond the last row. -/
def rowLossNat (x0 : (⟨2, ![16777216, 2]⟩ : Shape).Idx → EReal) (x1 : (⟨1, ![16777216]⟩ : Shape).Idx → EReal)
    (n : ℕ) : ℝ :=
  if h : n < 16777216 then rowLossAt x0 x1 ⟨n, h⟩ else 0

theorem rowLossNat_val (x0 : (⟨2, ![16777216, 2]⟩ : Shape).Idx → EReal) (x1 : (⟨1, ![16777216]⟩ : Shape).Idx → EReal)
    (n : Fin 16777216) : rowLossNat x0 x1 n.val = rowLossAt x0 x1 n := by
  unfold rowLossNat
  rw [dif_pos n.isLt]

/-- Where every entry is a real, the kernel's row function at a row is the real row loss there. -/
theorem kRowAt_coe (x0 : (⟨2, ![16777216, 2]⟩ : Shape).Idx → EReal) (x1 : (⟨1, ![16777216]⟩ : Shape).Idx → EReal)
    (h0 : ∀ i, ∃ r : ℝ, x0 i = (r : EReal)) (h1 : ∀ i, ∃ r : ℝ, x1 i = (r : EReal)) (n : Fin 16777216) :
    kRowAt x0 x1 n
      = ((rowLoss (x0 (ix2 n (0 : Fin 2))).toReal (x0 (ix2 n (1 : Fin 2))).toReal (x1 (ix1 n)).toReal : ℝ) : EReal) := by
  obtain ⟨a, ha⟩ := h0 (ix2 n (0 : Fin 2))
  obtain ⟨b, hb⟩ := h0 (ix2 n (1 : Fin 2))
  obtain ⟨g, hg⟩ := h1 (ix1 n)
  unfold kRowAt
  rw [ha, hb, hg, EReal.toReal_coe, EReal.toReal_coe, EReal.toReal_coe, kRow_coe]

/-- Where every entry is a real, the kernel's row function summed by the five digits of the row number is the whole
    loss. -/
theorem grouped_eq_total (x0 : (⟨2, ![16777216, 2]⟩ : Shape).Idx → EReal) (x1 : (⟨1, ![16777216]⟩ : Shape).Idx → EReal)
    (h0 : ∀ i, ∃ r : ℝ, x0 i = (r : EReal)) (h1 : ∀ i, ∃ r : ℝ, x1 i = (r : EReal)) :
    (∑ c : Fin 2, ∑ g : Fin 32, ∑ l : Fin 128, ∑ k : Fin 8, ∑ r : Fin 256, kRowAt x0 x1 (rowIdx c g k r l))
      = total x0 x1 := by
  have e1 : total x0 x1 = ((∑ n : Fin 16777216, rowLossNat x0 x1 n.val : ℝ) : EReal) := by
    unfold total
    exact congrArg _ (Finset.sum_congr rfl fun n _ => (rowLossNat_val x0 x1 n).symm)
  rw [e1, sum_regroup (rowLossNat x0 x1)]
  simp only [coe_sum]
  refine Finset.sum_congr rfl fun c _ => Finset.sum_congr rfl fun g _ => Finset.sum_congr rfl fun l _ =>
    Finset.sum_congr rfl fun k _ => Finset.sum_congr rfl fun r _ => ?_
  rw [kRowAt_coe x0 x1 h0 h1]
  exact congrArg _ (rowLossNat_val x0 x1 (rowIdx c g k r l)).symm

end FocalLoss

end
-- ==== Proof.KSum.lean ====
/-
  The kernel's result as the specification's total.

  Point `32 c + g` reads block `g` of core `c`'s half of the two reshaped argument arrays: its block row `R` is row
  `2048 g + R` of that half, and the reshapes are row-major, so logits column `2 l` (`2 l + 1`) of that row is class 0
  (class 1) of the original row `(65536 c + 2048 g + R) · 128 + l`, and score lane `l` is that original row's score. The
  point's total is therefore the sum of the row function over those original rows; the result array's entries (0,0) and
  (8,0) hold the two cores' sums of point totals; the host adds them and multiplies by one: every row is counted once.
-/
import proofs.«132625_j55525337202956_2_alg».proof.Proof.Gen.KernelIdeal.Frame
import Idealize.ShloMosaic.Lib.Pipeline.Value
import Idealize.ShloMosaic.Lib.Tactic
import proofs.«132625_j55525337202956_2_alg».proof.Proof.KGrid
import proofs.«132625_j55525337202956_2_alg».proof.Proof.KTotal
import proofs.«132625_j55525337202956_2_alg».proof.Proof.KBlocks
import proofs.«132625_j55525337202956_2_alg».proof.Proof.KTail
import proofs.«132625_j55525337202956_2_alg».proof.Proof.Grouped

noncomputable section

open Idealize.ShloMosaic Idealize.ShloMosaic.TcCoe Idealize.SL.Sem
open Idealize.ShloMosaic.Pipeline (Dat)
open Idealize.ShloMosaic.ValueIdx
namespace Cert.KernelIdeal.KValue

open Cert.KernelIdeal Cert.KernelIdeal.Gen

variable (m : (ℓ : Loc nD τ sig) → Buf (Elt Ideal) ℓ) (ρ : Dev nD → PrngReg)

/-- Point `32 c' + g`'s total: the row function over the rows of block `g` of core `c'`'s half. -/
theorem ptAt_eq (c : Dev nD) (c' : Fin 2) (g : Fin 32) :
    ptAt m c (32 * c'.val + g.val) = ∑ l : Fin 128, ∑ k : Fin 8, ∑ r : Fin 256,
      FocalLoss.kRowAt (m ((c : Thread nD τ).loc main_arg0)) (m ((c : Thread nD τ).loc main_arg1)) (FocalLoss.rowIdx c' g k r l) := by
  have hN : cfg0.N = 64 := N_0
  have ht : 32 * c'.val + g.val < cfg0.N := by omega
  unfold ptAt
  rw [dif_pos ht]
  refine (ptTotal_eq (iblk m c 0 ⟨32 * c'.val + g.val, ht⟩) (iblk m c 1 ⟨32 * c'.val + g.val, ht⟩)
    (fun R q => m ((c : Thread nD τ).loc main_arg0) (ix2 (⟨(c'.val * 65536 + (2048 * g.val + R.val)) * 128 + q.val / 2, by omega⟩ : Fin 16777216) (⟨q.val % 2, by omega⟩ : Fin 2)))
    (fun R l => m ((c : Thread nD τ).loc main_arg1) (ix1 (⟨(c'.val * 65536 + (2048 * g.val + R.val)) * 128 + l.val, by omega⟩ : Fin 16777216)))
    (fun R q => ?_) (fun R l => ?_)).trans ?_
  · rw [iblk0_apply m c ⟨32 * c'.val + g.val, ht⟩ R q c' ⟨2048 * g.val + R.val, by omega⟩ (by show c'.val = (32 * c'.val + g.val) / 32; omega)
      (by show 2048 * g.val + R.val = 2048 * ((32 * c'.val + g.val) % 32) + R.val; omega), V_main_v0]
    exact reshaped0_apply _ c' _ q _ _ (by show ((c'.val * 65536 + (2048 * g.val + R.val)) * 128 + q.val / 2) * 2 + q.val % 2 = (c'.val * 65536 + (2048 * g.val + R.val)) * 256 + q.val; omega)
  · rw [iblk1_apply m c ⟨32 * c'.val + g.val, ht⟩ R l c' ⟨2048 * g.val + R.val, by omega⟩ (by show c'.val = (32 * c'.val + g.val) / 32; omega)
      (by show 2048 * g.val + R.val = 2048 * ((32 * c'.val + g.val) % 32) + R.val; omega), V_main_v1]
    exact reshaped1_apply _ c' _ l _ rfl
  · refine Finset.sum_congr rfl fun l _ => Finset.sum_congr rfl fun k _ => Finset.sum_congr rfl fun r _ => ?_
    unfold FocalLoss.kRowAt FocalLoss.rowIdx
    dsimp only
    refine congr (congr (congrArg FocalLoss.kRow (congrArg _ ?_)) (congrArg _ ?_)) (congrArg _ ?_)
    · funext a
      match a with
      | ⟨0, _⟩ => exact Fin.ext (by show (c'.val * 65536 + (2048 * g.val + (256 * k.val + r.val))) * 128 + 2 * l.val / 2 = (c'.val * 65536 + (g.val * 2048 + (k.val * 256 + r.val))) * 128 + l.val; omega)
      | ⟨1, _⟩ => exact Fin.ext (by show 2 * l.val % 2 = 0; omega)
    · funext a
      match a with
      | ⟨0, _⟩ => exact Fin.ext (by show (c'.val * 65536 + (2048 * g.val + (256 * k.val + r.val))) * 128 + (2 * l.val + 1) / 2 = (c'.val * 65536 + (g.val * 2048 + (k.val * 256 + r.val))) * 128 + l.val; omega)
      | ⟨1, _⟩ => exact Fin.ext (by show (2 * l.val + 1) % 2 = 1; omega)
    · funext a
      match a with
      | ⟨0, _⟩ => exact Fin.ext (by show (c'.val * 65536 + (2048 * g.val + (256 * k.val + r.val))) * 128 + l.val = (c'.val * 65536 + (g.val * 2048 + (k.val * 256 + r.val))) * 128 + l.val; omega)

/-- The kernel's result, under finiteness of the two argument arrays: the specification's total. -/
theorem kernel_value (c : Dev nD)
    (h0 : ∀ i, ∃ r : ℝ, m ((c : Thread nD τ).loc main_arg0) i = (r : EReal))
    (h1 : ∀ i, ∃ r : ℝ, m ((c : Thread nD τ).loc main_arg1) i = (r : EReal)) :
    Pipeline.afterTail₀ cfgs (dats m) 0 (V0 m) [hostOps1] c main_v8
      = fun _ => FocalLoss.total (m ((c : Thread nD τ).loc main_arg0)) (m ((c : Thread nD τ).loc main_arg1)) := by
  rw [tail_eq, resAt_def, resAt_def, final_arr, result00, result80, mul_one,
    ← FocalLoss.grouped_eq_total (m ((c : Thread nD τ).loc main_arg0)) (m ((c : Thread nD τ).loc main_arg1)) h0 h1,
    Fin.sum_univ_two, Finset.sum_range, Finset.sum_range]
  funext _
  refine congrArg₂ (· + ·) (Finset.sum_congr rfl fun g _ => ?_) (Finset.sum_congr rfl fun g _ => ?_)
  · have := ptAt_eq m c (0 : Fin 2) g
    rw [show 32 * (0 : Fin 2).val + g.val = g.val from by show 32 * 0 + g.val = g.val; omega] at this
    exact this
  · have := ptAt_eq m c (1 : Fin 2) g
    rw [show 32 * (1 : Fin 2).val + g.val = 32 + g.val from by show 32 * 1 + g.val = 32 + g.val; omega] at this
    exact this

/-- The kernel's run, read: the result at the specification's total, the arguments unchanged. -/
theorem run (hfin : ∀ c : Dev nD, (∀ i, ∃ r : ℝ, m ((c : Thread nD τ).loc main_arg0) i = (r : EReal)) ∧ (∀ i, ∃ r : ℝ, m ((c : Thread nD τ).loc main_arg1) i = (r : EReal))) :
    θ_run defs (onTc (τ := τ) (main (F := Ideal))) ⟨m, fun _ => 0, ρ⟩ fun r => ∀ c : Dev nD,
      r.2.mem ((c.tc : Thread nD τ).loc main_v8) = (fun _ => FocalLoss.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (kernel_value m c (hfin c).1 (hfin c).2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference program's run, read at its result.

  The program is a straight line of 47 whole-array operations, so the buffers after it are the fold of the operations'
  results over the launch contents. Read at the result buffer, that fold is the composite of the operations' functions
  along the program's data flow, which is what the nested stages `val_<buffer>` spell one operation at a time; read at an
  argument buffer it is the launch contents, no operation writing an argument.

  The composite is computed once for a line of the same shape whose 47 functions are arbitrary (`after_line`): each
  stage is named by a variable with its defining equation, so the statement never mentions a composite, and the only
  thing the computation can unfold is the fold itself — the transports of the called function's typed references
  along an equation of buffer types that holds by computation are identities. The program's own line is that one
  at its functions, each stage's defining equation holding by unfolding the stage once (`after_ops`).
-/
import proofs.«132625_j55525337202956_2_alg».proof.Proof.RefRunGen
import proofs.«132625_j55525337202956_2_alg».proof.Proof.RefReadGen

noncomputable section

namespace Cert.ReferenceIdeal.RefValue

open Cert.ReferenceIdeal Cert.ReferenceIdeal.Gen Cert.ReferenceIdeal.GenP Idealize.ShloMosaic Idealize.ShloMosaic.TcCoe Idealize.SL.Sem Idealize.ShloMosaic.StableHlo

variable {F : FTy → Type} [FloatOps F]

set_option maxRecDepth 8192 in
set_option maxHeartbeats 2000000 in
/-- A line of the program's shape over arbitrary functions `f0 … f46`, from any contents `V`: with `s_<buffer>` the
    value of each operation in turn (`hK`: operation `K`'s function at its operands' values, an argument's being its
    contents in `V`), the result buffer ends at the last value and the two argument buffers as they were. -/
theorem after_line
    (f0 : (⟨S_, .f32⟩ : BufTy).Contents (Elt F))
    (f1 : (⟨S_, .f32⟩ : BufTy).Contents (Elt F) → (⟨S16777216, .f32⟩ : BufTy).Contents (Elt F))
    (f2 : (⟨S16777216, .f32⟩ : BufTy).Contents (Elt F) → (⟨S16777216, .f32⟩ : BufTy).Contents (Elt F) → (⟨S16777216, .i1⟩ : BufTy).Contents (Elt F))
    (f3 : (⟨S16777216, .i1⟩ : BufTy).Contents (Elt F) → (⟨S16777216, .f32⟩ : BufTy).Contents (Elt F))
    (f4 : (⟨S_, .f32⟩ : BufTy).Contents (Elt F))
    (f5 : (⟨S_, .f32⟩ : BufTy).Contents (Elt F) → (⟨S16777216, .f32⟩ : BufTy).Contents (Elt F))
    (f6 : (⟨S16777216, .f32⟩ : BufTy).Contents (Elt F) → (⟨S16777216, .f32⟩ : BufTy).Contents (Elt F) → (⟨S16777216, .f32⟩ : BufTy).Contents (Elt F))
    (f7 : (⟨S_, .f32⟩ : BufTy).Contents (Elt F))
    (f8 : (⟨S_, .f32⟩ : BufTy).Contents (Elt F) → (⟨S16777216, .f32⟩ : BufTy).Contents (Elt F))
    (f9 : (⟨S16777216, .f32⟩ : BufTy).Contents (Elt F) → (⟨S16777216, .f32⟩ : BufTy).Contents (Elt F) → (⟨S16777216, .f32⟩ : BufTy).Contents (Elt F))
    (f10 : (⟨S_, .f32⟩ : BufTy).Contents (Elt F))
    (f11 : (⟨S_, .f32⟩ : BufTy).Contents (Elt F) → (⟨S16777216, .f32⟩ : BufTy).Contents (Elt F))
    (f12 : (⟨S16777216, .f32⟩ : BufTy).Contents (Elt F) → (⟨S16777216, .f32⟩ : BufTy).Contents (Elt F) → (⟨S16777216, .f32⟩ : BufTy).Contents (Elt F))
    (f13 : (⟨S16777216, .f32⟩ : BufTy).Contents (Elt F) → (⟨S16777216x1, .f32⟩ : BufTy).Contents (Elt F))
    (f14 : (⟨S16777216, .f32⟩ : BufTy).Contents (Elt F) → (⟨S16777216x1, .f32⟩ : BufTy).Contents (Elt F))
    (f15 : (⟨S16777216x1, .f32⟩ : BufTy).Contents (Elt F) → (⟨S16777216x1, .f32⟩ : BufTy).Contents (Elt F) → (⟨S16777216x2, .f32⟩ : BufTy).Contents (Elt F))
    (f16 : (⟨S_, .f32⟩ : BufTy).Contents (Elt F))
    (f17 : (⟨S16777216x2, .f32⟩ : BufTy).Contents (Elt F) → (⟨S_, .f32⟩ : BufTy).Contents (Elt F) → (⟨S16777216, .f32⟩ : BufTy).Contents (Elt F))
    (f18 : (⟨S_, .f32⟩ : BufTy).Contents (Elt F))
    (f19 : (⟨S_, .f32⟩ : BufTy).Contents (Elt F) → (⟨S16777216, .f32⟩ : BufTy).Contents (Elt F))
    (f20 : (⟨S16777216, .f32⟩ : BufTy).Contents (Elt F) → (⟨S16777216, .f32⟩ : BufTy).Contents (Elt F) → (⟨S16777216, .f32⟩ : BufTy).Contents (Elt F))
    (f21 : (⟨S16777216, .f32⟩ : BufTy).Contents (Elt F) → (⟨S16777216x1, .f32⟩ : BufTy).Contents (Elt F))
    (f22 : (⟨S16777216x1, .f32⟩ : BufTy).Contents (Elt F) → (⟨S16777216x2, .f32⟩ : BufTy).Contents (Elt F))
    (f23 : (⟨S16777216x2, .f32⟩ : BufTy).Contents (Elt F) → (⟨S16777216x2, .f32⟩ : BufTy).Contents (Elt F) → (⟨S16777216x2, .f32⟩ : BufTy).Contents (Elt F))
    (f24 : (⟨S16777216x2, .f32⟩ : BufTy).Contents (Elt F) → (⟨S16777216x2, .f32⟩ : BufTy).Contents (Elt F))
    (f25 : (⟨S_, .f32⟩ : BufTy).Contents (Elt F))
    (f26 : (⟨S16777216x2, .f32⟩ : BufTy).Contents (Elt F) → (⟨S_, .f32⟩ : BufTy).Contents (Elt F) → (⟨S16777216, .f32⟩ : BufTy).Contents (Elt F))
    (f27 : (⟨S16777216, .f32⟩ : BufTy).Contents (Elt F) → (⟨S16777216x1, .f32⟩ : BufTy).Contents (Elt F))
    (f28 : (⟨S16777216x1, .f32⟩ : BufTy).Contents (Elt F) → (⟨S16777216x1, .f32⟩ : BufTy).Contents (Elt F))
    (f29 : (⟨S16777216x1, .f32⟩ : BufTy).Contents (Elt F) → (⟨S16777216x2, .f32⟩ : BufTy).Contents (Elt F))
    (f30 : (⟨S16777216x2, .f32⟩ : BufTy).Contents (Elt F) → (⟨S16777216x2, .f32⟩ : BufTy).Contents (Elt F) → (⟨S16777216x2, .f32⟩ : BufTy).Contents (Elt F))
    (f31 : (⟨S16777216x2, .f32⟩ : BufTy).Contents (Elt F) → (⟨S16777216x2, .f32⟩ : BufTy).Contents (Elt F))
    (f32 : (⟨S_, .f32⟩ : BufTy).Contents (Elt F))
    (f33 : (⟨S_, .f32⟩ : BufTy).Contents (Elt F) → (⟨S16777216x2, .f32⟩ : BufTy).Contents (Elt F))
    (f34 : (⟨S16777216x2, .f32⟩ : BufTy).Contents (Elt F) → (⟨S16777216x2, .f32⟩ : BufTy).Contents (Elt F) → (⟨S16777216x2, .f32⟩ : BufTy).Contents (Elt F))
    (f35 : (⟨S_, .f32⟩ : BufTy).Contents (Elt F))
    (f36 : (⟨S_, .f32⟩ : BufTy).Contents (Elt F) → (⟨S16777216x2, .f32⟩ : BufTy).Contents (Elt F))
    (f37 : (⟨S16777216x2, .f32⟩ : BufTy).Contents (Elt F) → (⟨S16777216x2, .f32⟩ : BufTy).Contents (Elt F) → (⟨S16777216x2, .f32⟩ : BufTy).Contents (Elt F))
    (f38 : (⟨S16777216x2, .f32⟩ : BufTy).Contents (Elt F) → (⟨S16777216x2, .f32⟩ : BufTy).Contents (Elt F) → (⟨S16777216x2, .f32⟩ : BufTy).Contents (Elt F))
    (f39 : (⟨S16777216x2, .f32⟩ : BufTy).Contents (Elt F) → (⟨S16777216x2, .f32⟩ : BufTy).Contents (Elt F) → (⟨S16777216x2, .f32⟩ : BufTy).Contents (Elt F))
    (f40 : (⟨S_, .f32⟩ : BufTy).Contents (Elt F))
    (f41 : (⟨S16777216x2, .f32⟩ : BufTy).Contents (Elt F) → (⟨S_, .f32⟩ : BufTy).Contents (Elt F) → (⟨S16777216, .f32⟩ : BufTy).Contents (Elt F))
    (f42 : (⟨S16777216, .f32⟩ : BufTy).Contents (Elt F) → (⟨S16777216, .f32⟩ : BufTy).Contents (Elt F))
    (f43 : (⟨S_, .f32⟩ : BufTy).Contents (Elt F))
    (f44 : (⟨S16777216, .f32⟩ : BufTy).Contents (Elt F) → (⟨S_, .f32⟩ : BufTy).Contents (Elt F) → (⟨S_, .f32⟩ : BufTy).Contents (Elt F))
    (f45 : (⟨S_, .f32⟩ : BufTy).Contents (Elt F))
    (f46 : (⟨S_, .f32⟩ : BufTy).Contents (Elt F) → (⟨S_, .f32⟩ : BufTy).Contents (Elt F) → (⟨S_, .f32⟩ : BufTy).Contents (Elt F))
    (V : Valuation τ sig (Elt F))
    (s_main_cst : (⟨S_, .f32⟩ : BufTy).Contents (Elt F))
    (s_main_v0 : (⟨S16777216, .f32⟩ : BufTy).Contents (Elt F))
    (s_main_v1 : (⟨S16777216, .i1⟩ : BufTy).Contents (Elt F))
    (s_main_v2 : (⟨S16777216, .f32⟩ : BufTy).Contents (Elt F))
    (s_main_cst_0 : (⟨S_, .f32⟩ : BufTy).Contents (Elt F))
    (s_main_v3 : (⟨S16777216, .f32⟩ : BufTy).Contents (Elt F))
    (s_main_v4 : (⟨S16777216, .f32⟩ : BufTy).Contents (Elt F))
    (s_main_cst_1 : (⟨S_, .f32⟩ : BufTy).Contents (Elt F))
    (s_main_v5 : (⟨S16777216, .f32⟩ : BufTy).Contents (Elt F))
    (s_main_v6 : (⟨S16777216, .f32⟩ : BufTy).Contents (Elt F))
    (s_main_cst_2 : (⟨S_, .f32⟩ : BufTy).Contents (Elt F))
    (s_main_v7 : (⟨S16777216, .f32⟩ : BufTy).Contents (Elt F))
    (s_main_v8 : (⟨S16777216, .f32⟩ : BufTy).Contents (Elt F))
    (s_main_v9 : (⟨S16777216x1, .f32⟩ : BufTy).Contents (Elt F))
    (s_main_v10 : (⟨S16777216x1, .f32⟩ : BufTy).Contents (Elt F))
    (s_main_v11 : (⟨S16777216x2, .f32⟩ : BufTy).Contents (Elt F))
    (s_main_call0_cst : (⟨S_, .f32⟩ : BufTy).Contents (Elt F))
    (s_main_call0_v0 : (⟨S16777216, .f32⟩ : BufTy).Contents (Elt F))
    (s_main_call0_cst_0 : (⟨S_, .f32⟩ : BufTy).Contents (Elt F))
    (s_main_call0_v1 : (⟨S16777216, .f32⟩ : BufTy).Contents (Elt F))
    (s_main_call0_v2 : (⟨S16777216, .f32⟩ : BufTy).Contents (Elt F))
    (s_main_call0_v3 : (⟨S16777216x1, .f32⟩ : BufTy).Contents (Elt F))
    (s_main_call0_v4 : (⟨S16777216x2, .f32⟩ : BufTy).Contents (Elt F))
    (s_main_call0_v5 : (⟨S16777216x2, .f32⟩ : BufTy).Contents (Elt F))
    (s_main_call0_v6 : (⟨S16777216x2, .f32⟩ : BufTy).Contents (Elt F))
    (s_main_call0_cst_1 : (⟨S_, .f32⟩ : BufTy).Contents (Elt F))
    (s_main_call0_v7 : (⟨S16777216, .f32⟩ : BufTy).Contents (Elt F))
    (s_main_call0_v8 : (⟨S16777216x1, .f32⟩ : BufTy).Contents (Elt F))
    (s_main_call0_v9 : (⟨S16777216x1, .f32⟩ : BufTy).Contents (Elt F))
    (s_main_call0_v10 : (⟨S16777216x2, .f32⟩ : BufTy).Contents (Elt F))
    (s_main_v12 : (⟨S16777216x2, .f32⟩ : BufTy).Contents (Elt F))
    (s_main_v13 : (⟨S16777216x2, .f32⟩ : BufTy).Contents (Elt F))
    (s_main_cst_3 : (⟨S_, .f32⟩ : BufTy).Contents (Elt F))
    (s_main_v14 : (⟨S16777216x2, .f32⟩ : BufTy).Contents (Elt F))
    (s_main_v15 : (⟨S16777216x2, .f32⟩ : BufTy).Contents (Elt F))
    (s_main_cst_4 : (⟨S_, .f32⟩ : BufTy).Contents (Elt F))
    (s_main_v16 : (⟨S16777216x2, .f32⟩ : BufTy).Contents (Elt F))
    (s_main_v17 : (⟨S16777216x2, .f32⟩ : BufTy).Contents (Elt F))
    (s_main_v18 : (⟨S16777216x2, .f32⟩ : BufTy).Contents (Elt F))
    (s_main_v19 : (⟨S16777216x2, .f32⟩ : BufTy).Contents (Elt F))
    (s_main_cst_5 : (⟨S_, .f32⟩ : BufTy).Contents (Elt F))
    (s_main_v20 : (⟨S16777216, .f32⟩ : BufTy).Contents (Elt F))
    (s_main_v21 : (⟨S16777216, .f32⟩ : BufTy).Contents (Elt F))
    (s_main_cst_6 : (⟨S_, .f32⟩ : BufTy).Contents (Elt F))
    (s_main_v22 : (⟨S_, .f32⟩ : BufTy).Contents (Elt F))
    (s_main_cst_7 : (⟨S_, .f32⟩ : BufTy).Contents (Elt F))
    (s_main_v23 : (⟨S_, .f32⟩ : BufTy).Contents (Elt F))
    (h0 : s_main_cst = f0)
    (h1 : s_main_v0 = f1 s_main_cst)
    (h2 : s_main_v1 = f2 (V (Proc.devRef .tc main_arg1)) s_main_v0)
    (h3 : s_main_v2 = f3 s_main_v1)
    (h4 : s_main_cst_0 = f4)
    (h5 : s_main_v3 = f5 s_main_cst_0)
    (h6 : s_main_v4 = f6 s_main_v2 s_main_v3)
    (h7 : s_main_cst_1 = f7)
    (h8 : s_main_v5 = f8 s_main_cst_1)
    (h9 : s_main_v6 = f9 s_main_v5 s_main_v4)
    (h10 : s_main_cst_2 = f10)
    (h11 : s_main_v7 = f11 s_main_cst_2)
    (h12 : s_main_v8 = f12 s_main_v6 s_main_v7)
    (h13 : s_main_v9 = f13 s_main_v8)
    (h14 : s_main_v10 = f14 s_main_v4)
    (h15 : s_main_v11 = f15 s_main_v9 s_main_v10)
    (h16 : s_main_call0_cst = f16)
    (h17 : s_main_call0_v0 = f17 (V (Proc.devRef .tc main_arg0)) s_main_call0_cst)
    (h18 : s_main_call0_cst_0 = f18)
    (h19 : s_main_call0_v1 = f19 s_main_call0_cst_0)
    (h20 : s_main_call0_v2 = f20 s_main_call0_v1 s_main_call0_v0)
    (h21 : s_main_call0_v3 = f21 s_main_call0_v2)
    (h22 : s_main_call0_v4 = f22 s_main_call0_v3)
    (h23 : s_main_call0_v5 = f23 (V (Proc.devRef .tc main_arg0)) s_main_call0_v4)
    (h24 : s_main_call0_v6 = f24 s_main_call0_v5)
    (h25 : s_main_call0_cst_1 = f25)
    (h26 : s_main_call0_v7 = f26 s_main_call0_v6 s_main_call0_cst_1)
    (h27 : s_main_call0_v8 = f27 s_main_call0_v7)
    (h28 : s_main_call0_v9 = f28 s_main_call0_v8)
    (h29 : s_main_call0_v10 = f29 s_main_call0_v9)
    (h30 : s_main_v12 = f30 s_main_call0_v5 s_main_call0_v10)
    (h31 : s_main_v13 = f31 s_main_v12)
    (h32 : s_main_cst_3 = f32)
    (h33 : s_main_v14 = f33 s_main_cst_3)
    (h34 : s_main_v15 = f34 s_main_v14 s_main_v13)
    (h35 : s_main_cst_4 = f35)
    (h36 : s_main_v16 = f36 s_main_cst_4)
    (h37 : s_main_v17 = f37 s_main_v15 s_main_v16)
    (h38 : s_main_v18 = f38 s_main_v11 s_main_v12)
    (h39 : s_main_v19 = f39 s_main_v18 s_main_v17)
    (h40 : s_main_cst_5 = f40)
    (h41 : s_main_v20 = f41 s_main_v19 s_main_cst_5)
    (h42 : s_main_v21 = f42 s_main_v20)
    (h43 : s_main_cst_6 = f43)
    (h44 : s_main_v22 = f44 s_main_v21 s_main_cst_6)
    (h45 : s_main_cst_7 = f45)
    (h46 : s_main_v23 = f46 s_main_v22 s_main_cst_7) :
    after ([ nullary main_cst f0,
      unary main_cst main_v0 f1,
      binary main_arg1 main_v0 main_v1 f2,
      unary main_v1 main_v2 f3,
      nullary main_cst_0 f4,
      unary main_cst_0 main_v3 f5,
      binary main_v2 main_v3 main_v4 f6,
      nullary main_cst_1 f7,
      unary main_cst_1 main_v5 f8,
      binary main_v5 main_v4 main_v6 f9,
      nullary main_cst_2 f10,
      unary main_cst_2 main_v7 f11,
      binary main_v6 main_v7 main_v8 f12,
      unary main_v8 main_v9 f13,
      unary main_v4 main_v10 f14,
      binary main_v9 main_v10 main_v11 f15,
      TRef.nullary (TRef.of (T := ⟨S_, .f32⟩) main_call0_cst) f16,
      TRef.binary (TRef.of (T := ⟨S16777216x2, .f32⟩) main_arg0) (TRef.of (T := ⟨S_, .f32⟩) main_call0_cst) (TRef.of (T := ⟨S16777216, .f32⟩) main_call0_v0) f17,
      TRef.nullary (TRef.of (T := ⟨S_, .f32⟩) main_call0_cst_0) f18,
      TRef.unary (TRef.of (T := ⟨S_, .f32⟩) main_call0_cst_0) (TRef.of (T := ⟨S16777216, .f32⟩) main_call0_v1) f19,
      TRef.binary (TRef.of (T := ⟨S16777216, .f32⟩) main_call0_v1) (TRef.of (T := ⟨S16777216, .f32⟩) main_call0_v0) (TRef.of (T := ⟨S16777216, .f32⟩) main_call0_v2) f20,
      TRef.unary (TRef.of (T := ⟨S16777216, .f32⟩) main_call0_v2) (TRef.of (T := ⟨S16777216x1, .f32⟩) main_call0_v3) f21,
      TRef.unary (TRef.of (T := ⟨S16777216x1, .f32⟩) main_call0_v3) (TRef.of (T := ⟨S16777216x2, .f32⟩) main_call0_v4) f22,
      TRef.binary (TRef.of (T := ⟨S16777216x2, .f32⟩) main_arg0) (TRef.of (T := ⟨S16777216x2, .f32⟩) main_call0_v4) (TRef.of (T := ⟨S16777216x2, .f32⟩) main_call0_v5) f23,
      TRef.unary (TRef.of (T := ⟨S16777216x2, .f32⟩) main_call0_v5) (TRef.of (T := ⟨S16777216x2, .f32⟩) main_call0_v6) f24,
      TRef.nullary (TRef.of (T := ⟨S_, .f32⟩) main_call0_cst_1) f25,
      TRef.binary (TRef.of (T := ⟨S16777216x2, .f32⟩) main_call0_v6) (TRef.of (T := ⟨S_, .f32⟩) main_call0_cst_1) (TRef.of (T := ⟨S16777216, .f32⟩) main_call0_v7) f26,
      TRef.unary (TRef.of (T := ⟨S16777216, .f32⟩) main_call0_v7) (TRef.of (T := ⟨S16777216x1, .f32⟩) main_call0_v8) f27,
      TRef.unary (TRef.of (T := ⟨S16777216x1, .f32⟩) main_call0_v8) (TRef.of (T := ⟨S16777216x1, .f32⟩) main_call0_v9) f28,
      TRef.unary (TRef.of (T := ⟨S16777216x1, .f32⟩) main_call0_v9) (TRef.of (T := ⟨S16777216x2, .f32⟩) main_call0_v10) f29,
      TRef.binary (TRef.of (T := ⟨S16777216x2, .f32⟩) main_call0_v5) (TRef.of (T := ⟨S16777216x2, .f32⟩) main_call0_v10) (TRef.of (T := ⟨S16777216x2, .f32⟩) main_v12) f30,
      unary main_v12 main_v13 f31,
      nullary main_cst_3 f32,
      unary main_cst_3 main_v14 f33,
      binary main_v14 main_v13 main_v15 f34,
      nullary main_cst_4 f35,
      unary main_cst_4 main_v16 f36,
      binary main_v15 main_v16 main_v17 f37,
      binary main_v11 main_v12 main_v18 f38,
      binary main_v18 main_v17 main_v19 f39,
      nullary main_cst_5 f40,
      binary main_v19 main_cst_5 main_v20 f41,
      unary main_v20 main_v21 f42,
      nullary main_cst_6 f43,
      binary main_v21 main_cst_6 main_v22 f44,
      nullary main_cst_7 f45,
      binary main_v22 main_cst_7 main_v23 f46 ] : List (HloOp τ sig (Elt F))) V (Proc.devRef .tc main_v23) = s_main_v23
      ∧ after ([ nullary main_cst f0,
      unary main_cst main_v0 f1,
      binary main_arg1 main_v0 main_v1 f2,
      unary main_v1 main_v2 f3,
      nullary main_cst_0 f4,
      unary main_cst_0 main_v3 f5,
      binary main_v2 main_v3 main_v4 f6,
      nullary main_cst_1 f7,
      unary main_cst_1 main_v5 f8,
      binary main_v5 main_v4 main_v6 f9,
      nullary main_cst_2 f10,
      unary main_cst_2 main_v7 f11,
      binary main_v6 main_v7 main_v8 f12,
      unary main_v8 main_v9 f13,
      unary main_v4 main_v10 f14,
      binary main_v9 main_v10 main_v11 f15,
      TRef.nullary (TRef.of (T := ⟨S_, .f32⟩) main_call0_cst) f16,
      TRef.binary (TRef.of (T := ⟨S16777216x2, .f32⟩) main_arg0) (TRef.of (T := ⟨S_, .f32⟩) main_call0_cst) (TRef.of (T := ⟨S16777216, .f32⟩) main_call0_v0) f17,
      TRef.nullary (TRef.of (T := ⟨S_, .f32⟩) main_call0_cst_0) f18,
      TRef.unary (TRef.of (T := ⟨S_, .f32⟩) main_call0_cst_0) (TRef.of (T := ⟨S16777216, .f32⟩) main_call0_v1) f19,
      TRef.binary (TRef.of (T := ⟨S16777216, .f32⟩) main_call0_v1) (TRef.of (T := ⟨S16777216, .f32⟩) main_call0_v0) (TRef.of (T := ⟨S16777216, .f32⟩) main_call0_v2) f20,
      TRef.unary (TRef.of (T := ⟨S16777216, .f32⟩) main_call0_v2) (TRef.of (T := ⟨S16777216x1, .f32⟩) main_call0_v3) f21,
      TRef.unary (TRef.of (T := ⟨S16777216x1, .f32⟩) main_call0_v3) (TRef.of (T := ⟨S16777216x2, .f32⟩) main_call0_v4) f22,
      TRef.binary (TRef.of (T := ⟨S16777216x2, .f32⟩) main_arg0) (TRef.of (T := ⟨S16777216x2, .f32⟩) main_call0_v4) (TRef.of (T := ⟨S16777216x2, .f32⟩) main_call0_v5) f23,
      TRef.unary (TRef.of (T := ⟨S16777216x2, .f32⟩) main_call0_v5) (TRef.of (T := ⟨S16777216x2, .f32⟩) main_call0_v6) f24,
      TRef.nullary (TRef.of (T := ⟨S_, .f32⟩) main_call0_cst_1) f25,
      TRef.binary (TRef.of (T := ⟨S16777216x2, .f32⟩) main_call0_v6) (TRef.of (T := ⟨S_, .f32⟩) main_call0_cst_1) (TRef.of (T := ⟨S16777216, .f32⟩) main_call0_v7) f26,
      TRef.unary (TRef.of (T := ⟨S16777216, .f32⟩) main_call0_v7) (TRef.of (T := ⟨S16777216x1, .f32⟩) main_call0_v8) f27,
      TRef.unary (TRef.of (T := ⟨S16777216x1, .f32⟩) main_call0_v8) (TRef.of (T := ⟨S16777216x1, .f32⟩) main_call0_v9) f28,
      TRef.unary (TRef.of (T := ⟨S16777216x1, .f32⟩) main_call0_v9) (TRef.of (T := ⟨S16777216x2, .f32⟩) main_call0_v10) f29,
      TRef.binary (TRef.of (T := ⟨S16777216x2, .f32⟩) main_call0_v5) (TRef.of (T := ⟨S16777216x2, .f32⟩) main_call0_v10) (TRef.of (T := ⟨S16777216x2, .f32⟩) main_v12) f30,
      unary main_v12 main_v13 f31,
      nullary main_cst_3 f32,
      unary main_cst_3 main_v14 f33,
      binary main_v14 main_v13 main_v15 f34,
      nullary main_cst_4 f35,
      unary main_cst_4 main_v16 f36,
      binary main_v15 main_v16 main_v17 f37,
      binary main_v11 main_v12 main_v18 f38,
      binary main_v18 main_v17 main_v19 f39,
      nullary main_cst_5 f40,
      binary main_v19 main_cst_5 main_v20 f41,
      unary main_v20 main_v21 f42,
      nullary main_cst_6 f43,
      binary main_v21 main_cst_6 main_v22 f44,
      nullary main_cst_7 f45,
      binary main_v22 main_cst_7 main_v23 f46 ] : List (HloOp τ sig (Elt F))) V (Proc.devRef .tc main_arg0) = V (Proc.devRef .tc main_arg0)
      ∧ after ([ nullary main_cst f0,
      unary main_cst main_v0 f1,
      binary main_arg1 main_v0 main_v1 f2,
      unary main_v1 main_v2 f3,
      nullary main_cst_0 f4,
      unary main_cst_0 main_v3 f5,
      binary main_v2 main_v3 main_v4 f6,
      nullary main_cst_1 f7,
      unary main_cst_1 main_v5 f8,
      binary main_v5 main_v4 main_v6 f9,
      nullary main_cst_2 f10,
      unary main_cst_2 main_v7 f11,
      binary main_v6 main_v7 main_v8 f12,
      unary main_v8 main_v9 f13,
      unary main_v4 main_v10 f14,
      binary main_v9 main_v10 main_v11 f15,
      TRef.nullary (TRef.of (T := ⟨S_, .f32⟩) main_call0_cst) f16,
      TRef.binary (TRef.of (T := ⟨S16777216x2, .f32⟩) main_arg0) (TRef.of (T := ⟨S_, .f32⟩) main_call0_cst) (TRef.of (T := ⟨S16777216, .f32⟩) main_call0_v0) f17,
      TRef.nullary (TRef.of (T := ⟨S_, .f32⟩) main_call0_cst_0) f18,
      TRef.unary (TRef.of (T := ⟨S_, .f32⟩) main_call0_cst_0) (TRef.of (T := ⟨S16777216, .f32⟩) main_call0_v1) f19,
      TRef.binary (TRef.of (T := ⟨S16777216, .f32⟩) main_call0_v1) (TRef.of (T := ⟨S16777216, .f32⟩) main_call0_v0) (TRef.of (T := ⟨S16777216, .f32⟩) main_call0_v2) f20,
      TRef.unary (TRef.of (T := ⟨S16777216, .f32⟩) main_call0_v2) (TRef.of (T := ⟨S16777216x1, .f32⟩) main_call0_v3) f21,
      TRef.unary (TRef.of (T := ⟨S16777216x1, .f32⟩) main_call0_v3) (TRef.of (T := ⟨S16777216x2, .f32⟩) main_call0_v4) f22,
      TRef.binary (TRef.of (T := ⟨S16777216x2, .f32⟩) main_arg0) (TRef.of (T := ⟨S16777216x2, .f32⟩) main_call0_v4) (TRef.of (T := ⟨S16777216x2, .f32⟩) main_call0_v5) f23,
      TRef.unary (TRef.of (T := ⟨S16777216x2, .f32⟩) main_call0_v5) (TRef.of (T := ⟨S16777216x2, .f32⟩) main_call0_v6) f24,
      TRef.nullary (TRef.of (T := ⟨S_, .f32⟩) main_call0_cst_1) f25,
      TRef.binary (TRef.of (T := ⟨S16777216x2, .f32⟩) main_call0_v6) (TRef.of (T := ⟨S_, .f32⟩) main_call0_cst_1) (TRef.of (T := ⟨S16777216, .f32⟩) main_call0_v7) f26,
      TRef.unary (TRef.of (T := ⟨S16777216, .f32⟩) main_call0_v7) (TRef.of (T := ⟨S16777216x1, .f32⟩) main_call0_v8) f27,
      TRef.unary (TRef.of (T := ⟨S16777216x1, .f32⟩) main_call0_v8) (TRef.of (T := ⟨S16777216x1, .f32⟩) main_call0_v9) f28,
      TRef.unary (TRef.of (T := ⟨S16777216x1, .f32⟩) main_call0_v9) (TRef.of (T := ⟨S16777216x2, .f32⟩) main_call0_v10) f29,
      TRef.binary (TRef.of (T := ⟨S16777216x2, .f32⟩) main_call0_v5) (TRef.of (T := ⟨S16777216x2, .f32⟩) main_call0_v10) (TRef.of (T := ⟨S16777216x2, .f32⟩) main_v12) f30,
      unary main_v12 main_v13 f31,
      nullary main_cst_3 f32,
      unary main_cst_3 main_v14 f33,
      binary main_v14 main_v13 main_v15 f34,
      nullary main_cst_4 f35,
      unary main_cst_4 main_v16 f36,
      binary main_v15 main_v16 main_v17 f37,
      binary main_v11 main_v12 main_v18 f38,
      binary main_v18 main_v17 main_v19 f39,
      nullary main_cst_5 f40,
      binary main_v19 main_cst_5 main_v20 f41,
      unary main_v20 main_v21 f42,
      nullary main_cst_6 f43,
      binary main_v21 main_cst_6 main_v22 f44,
      nullary main_cst_7 f45,
      binary main_v22 main_cst_7 main_v23 f46 ] : List (HloOp τ sig (Elt F))) V (Proc.devRef .tc main_arg1) = V (Proc.devRef .tc main_arg1) := by
  subst_vars
  refine ⟨?_, ?_, ?_⟩ <;> after_results_simp <;> rfl

set_option maxRecDepth 8192 in
set_option maxHeartbeats 2000000 in
/-- The program's own line: the result buffer ends at the last stage of the two arguments' contents, the arguments as
    they were. Each of the 47 defining equations is the stage's definition. -/
theorem after_ops (V : Valuation τ sig (Elt F)) :
    after (ops (F := F)) V (Proc.devRef .tc main_v23) = val_main_v23 (F := F) (V (Proc.devRef .tc main_arg0)) (V (Proc.devRef .tc main_arg1))
      ∧ after (ops (F := F)) V (Proc.devRef .tc main_arg0) = V (Proc.devRef .tc main_arg0)
      ∧ after (ops (F := F)) V (Proc.devRef .tc main_arg1) = V (Proc.devRef .tc main_arg1) :=
  after_line (F := F)
    (constant S_ .f32 0x3F000000#32)
    ((broadcastInDim S16777216 ![] bcast_S_S16777216) : (⟨S_, .f32⟩ : BufTy).Contents (Elt F) → (⟨S16777216, .f32⟩ : BufTy).Contents (Elt F))
    ((cmpf .oge) : (⟨S16777216, .f32⟩ : BufTy).Contents (Elt F) → (⟨S16777216, .f32⟩ : BufTy).Contents (Elt F) → (⟨S16777216, .i1⟩ : BufTy).Contents (Elt F))
    ((uitofp .f32) : (⟨S16777216, .i1⟩ : BufTy).Contents (Elt F) → (⟨S16777216, .f32⟩ : BufTy).Contents (Elt F))
    (constant S_ .f32 0x3E800000#32)
    ((broadcastInDim S16777216 ![] bcast_S_S16777216) : (⟨S_, .f32⟩ : BufTy).Contents (Elt F) → (⟨S16777216, .f32⟩ : BufTy).Contents (Elt F))
    ((mulf) : (⟨S16777216, .f32⟩ : BufTy).Contents (Elt F) → (⟨S16777216, .f32⟩ : BufTy).Contents (Elt F) → (⟨S16777216, .f32⟩ : BufTy).Contents (Elt F))
    (constant S_ .f32 0x3F800000#32)
    ((broadcastInDim S16777216 ![] bcast_S_S16777216) : (⟨S_, .f32⟩ : BufTy).Contents (Elt F) → (⟨S16777216, .f32⟩ : BufTy).Contents (Elt F))
    ((subf) : (⟨S16777216, .f32⟩ : BufTy).Contents (Elt F) → (⟨S16777216, .f32⟩ : BufTy).Contents (Elt F) → (⟨S16777216, .f32⟩ : BufTy).Contents (Elt F))
    (constant S_ .f32 0x3F400000#32)
    ((broadcastInDim S16777216 ![] bcast_S_S16777216) : (⟨S_, .f32⟩ : BufTy).Contents (Elt F) → (⟨S16777216, .f32⟩ : BufTy).Contents (Elt F))
    ((mulf) : (⟨S16777216, .f32⟩ : BufTy).Contents (Elt F) → (⟨S16777216, .f32⟩ : BufTy).Contents (Elt F) → (⟨S16777216, .f32⟩ : BufTy).Contents (Elt F))
    ((broadcastInDim S16777216x1 ![0] bcast_S16777216_S16777216x1_0) : (⟨S16777216, .f32⟩ : BufTy).Contents (Elt F) → (⟨S16777216x1, .f32⟩ : BufTy).Contents (Elt F))
    ((broadcastInDim S16777216x1 ![0] bcast_S16777216_S16777216x1_0) : (⟨S16777216, .f32⟩ : BufTy).Contents (Elt F) → (⟨S16777216x1, .f32⟩ : BufTy).Contents (Elt F))
    ((fun a b => concatenate S16777216x2 1 [⟨S16777216x1, a⟩, ⟨S16777216x1, b⟩] concatenates_S16777216x1_S16777216x1_S16777216x2_d1) : (⟨S16777216x1, .f32⟩ : BufTy).Contents (Elt F) → (⟨S16777216x1, .f32⟩ : BufTy).Contents (Elt F) → (⟨S16777216x2, .f32⟩ : BufTy).Contents (Elt F))
    (constant S_ .f32 0xFF800000#32)
    ((fun x v => Host.reduce FloatOps.maximumf x v reducesTo_S16777216x2_S16777216_d1 h_S_) : (⟨S16777216x2, .f32⟩ : BufTy).Contents (Elt F) → (⟨S_, .f32⟩ : BufTy).Contents (Elt F) → (⟨S16777216, .f32⟩ : BufTy).Contents (Elt F))
    (constant S_ .f32 0xFF800000#32)
    ((broadcastInDim S16777216 ![] bcast_S_S16777216) : (⟨S_, .f32⟩ : BufTy).Contents (Elt F) → (⟨S16777216, .f32⟩ : BufTy).Contents (Elt F))
    ((maximumf) : (⟨S16777216, .f32⟩ : BufTy).Contents (Elt F) → (⟨S16777216, .f32⟩ : BufTy).Contents (Elt F) → (⟨S16777216, .f32⟩ : BufTy).Contents (Elt F))
    ((broadcastInDim S16777216x1 ![0] bcast_S16777216_S16777216x1_0) : (⟨S16777216, .f32⟩ : BufTy).Contents (Elt F) → (⟨S16777216x1, .f32⟩ : BufTy).Contents (Elt F))
    ((broadcastInDim S16777216x2 ![0, 1] bcast_S16777216x1_S16777216x2_0_1) : (⟨S16777216x1, .f32⟩ : BufTy).Contents (Elt F) → (⟨S16777216x2, .f32⟩ : BufTy).Contents (Elt F))
    ((subf) : (⟨S16777216x2, .f32⟩ : BufTy).Contents (Elt F) → (⟨S16777216x2, .f32⟩ : BufTy).Contents (Elt F) → (⟨S16777216x2, .f32⟩ : BufTy).Contents (Elt F))
    ((Host.exp) : (⟨S16777216x2, .f32⟩ : BufTy).Contents (Elt F) → (⟨S16777216x2, .f32⟩ : BufTy).Contents (Elt F))
    (constant S_ .f32 0x00000000#32)
    ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F))
    ((broadcastInDim S16777216x1 ![0] bcast_S16777216_S16777216x1_0) : (⟨S16777216, .f32⟩ : BufTy).Contents (Elt F) → (⟨S16777216x1, .f32⟩ : BufTy).Contents (Elt F))
    ((Host.log) : (⟨S16777216x1, .f32⟩ : BufTy).Contents (Elt F) → (⟨S16777216x1, .f32⟩ : BufTy).Contents (Elt F))
    ((broadcastInDim S16777216x2 ![0, 1] bcast_S16777216x1_S16777216x2_0_1) : (⟨S16777216x1, .f32⟩ : BufTy).Contents (Elt F) → (⟨S16777216x2, .f32⟩ : BufTy).Contents (Elt F))
    ((subf) : (⟨S16777216x2, .f32⟩ : BufTy).Contents (Elt F) → (⟨S16777216x2, .f32⟩ : BufTy).Contents (Elt F) → (⟨S16777216x2, .f32⟩ : BufTy).Contents (Elt F))
    ((Host.exp) : (⟨S16777216x2, .f32⟩ : BufTy).Contents (Elt F) → (⟨S16777216x2, .f32⟩ : BufTy).Contents (Elt F))
    (constant S_ .f32 0x3F800000#32)
    ((broadcastInDim S16777216x2 ![] bcast_S_S16777216x2) : (⟨S_, .f32⟩ : BufTy).Contents (Elt F) → (⟨S16777216x2, .f32⟩ : BufTy).Contents (Elt F))
    ((subf) : (⟨S16777216x2, .f32⟩ : BufTy).Contents (Elt F) → (⟨S16777216x2, .f32⟩ : BufTy).Contents (Elt F) → (⟨S16777216x2, .f32⟩ : BufTy).Contents (Elt F))
    (constant S_ .f32 0x40000000#32)
    ((broadcastInDim S16777216x2 ![] bcast_S_S16777216x2) : (⟨S_, .f32⟩ : BufTy).Contents (Elt F) → (⟨S16777216x2, .f32⟩ : BufTy).Contents (Elt F))
    ((Host.powf) : (⟨S16777216x2, .f32⟩ : BufTy).Contents (Elt F) → (⟨S16777216x2, .f32⟩ : BufTy).Contents (Elt F) → (⟨S16777216x2, .f32⟩ : BufTy).Contents (Elt F))
    ((mulf) : (⟨S16777216x2, .f32⟩ : BufTy).Contents (Elt F) → (⟨S16777216x2, .f32⟩ : BufTy).Contents (Elt F) → (⟨S16777216x2, .f32⟩ : BufTy).Contents (Elt F))
    ((mulf) : (⟨S16777216x2, .f32⟩ : BufTy).Contents (Elt F) → (⟨S16777216x2, .f32⟩ : BufTy).Contents (Elt F) → (⟨S16777216x2, .f32⟩ : BufTy).Contents (Elt F))
    (constant S_ .f32 0x00000000#32)
    ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F))
    ((Host.negf) : (⟨S16777216, .f32⟩ : BufTy).Contents (Elt F) → (⟨S16777216, .f32⟩ : BufTy).Contents (Elt F))
    (constant S_ .f32 0x00000000#32)
    ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F))
    (constant S_ .f32 0x3F800000#32)
    ((mulf) : (⟨S_, .f32⟩ : BufTy).Contents (Elt F) → (⟨S_, .f32⟩ : BufTy).Contents (Elt F) → (⟨S_, .f32⟩ : BufTy).Contents (Elt F))
    V
    (val_main_cst (F := F))
    (val_main_v0 (F := F))
    (val_main_v1 (F := F) (V (Proc.devRef .tc main_arg1)))
    (val_main_v2 (F := F) (V (Proc.devRef .tc main_arg1)))
    (val_main_cst_0 (F := F))
    (val_main_v3 (F := F))
    (val_main_v4 (F := F) (V (Proc.devRef .tc main_arg1)))
    (val_main_cst_1 (F := F))
    (val_main_v5 (F := F))
    (val_main_v6 (F := F) (V (Proc.devRef .tc main_arg1)))
    (val_main_cst_2 (F := F))
    (val_main_v7 (F := F))
    (val_main_v8 (F := F) (V (Proc.devRef .tc main_arg1)))
    (val_main_v9 (F := F) (V (Proc.devRef .tc main_arg1)))
    (val_main_v10 (F := F) (V (Proc.devRef .tc main_arg1)))
    (val_main_v11 (F := F) (V (Proc.devRef .tc main_arg1)))
    (val_main_call0_cst (F := F))
    (val_main_call0_v0 (F := F) (V (Proc.devRef .tc main_arg0)))
    (val_main_call0_cst_0 (F := F))
    (val_main_call0_v1 (F := F))
    (val_main_call0_v2 (F := F) (V (Proc.devRef .tc main_arg0)))
    (val_main_call0_v3 (F := F) (V (Proc.devRef .tc main_arg0)))
    (val_main_call0_v4 (F := F) (V (Proc.devRef .tc main_arg0)))
    (val_main_call0_v5 (F := F) (V (Proc.devRef .tc main_arg0)))
    (val_main_call0_v6 (F := F) (V (Proc.devRef .tc main_arg0)))
    (val_main_call0_cst_1 (F := F))
    (val_main_call0_v7 (F := F) (V (Proc.devRef .tc main_arg0)))
    (val_main_call0_v8 (F := F) (V (Proc.devRef .tc main_arg0)))
    (val_main_call0_v9 (F := F) (V (Proc.devRef .tc main_arg0)))
    (val_main_call0_v10 (F := F) (V (Proc.devRef .tc main_arg0)))
    (val_main_v12 (F := F) (V (Proc.devRef .tc main_arg0)))
    (val_main_v13 (F := F) (V (Proc.devRef .tc main_arg0)))
    (val_main_cst_3 (F := F))
    (val_main_v14 (F := F))
    (val_main_v15 (F := F) (V (Proc.devRef .tc main_arg0)))
    (val_main_cst_4 (F := F))
    (val_main_v16 (F := F))
    (val_main_v17 (F := F) (V (Proc.devRef .tc main_arg0)))
    (val_main_v18 (F := F) (V (Proc.devRef .tc main_arg0)) (V (Proc.devRef .tc main_arg1)))
    (val_main_v19 (F := F) (V (Proc.devRef .tc main_arg0)) (V (Proc.devRef .tc main_arg1)))
    (val_main_cst_5 (F := F))
    (val_main_v20 (F := F) (V (Proc.devRef .tc main_arg0)) (V (Proc.devRef .tc main_arg1)))
    (val_main_v21 (F := F) (V (Proc.devRef .tc main_arg0)) (V (Proc.devRef .tc main_arg1)))
    (val_main_cst_6 (F := F))
    (val_main_v22 (F := F) (V (Proc.devRef .tc main_arg0)) (V (Proc.devRef .tc main_arg1)))
    (val_main_cst_7 (F := F))
    (val_main_v23 (F := F) (V (Proc.devRef .tc main_arg0)) (V (Proc.devRef .tc main_arg1)))
    rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl

/-- On every device, for any float values, from any memory with zero counters: every weakly fair execution of @main
    terminates with the result buffer at the last stage of the arguments' launch contents, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = val_main_v23 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (after_ops (launchContents m c)).1,
      (h c main_arg0).trans (after_ops (launchContents m c)).2.1,
      (h c main_arg1).trans (after_ops (launchContents m c)).2.2⟩)
    (run_seq scopedRefs_eq scopedSems_eq defs main (fun _ => ops) main_eq (fun _ => ops_sub) m ρ)

end Cert.ReferenceIdeal.RefValue

end
-- ==== Proof.RefValue.lean ====
/-
  The reference's value on finite inputs: the last stage of the reference program, at the ideal instance, is the
  two-class focal loss summed over the rows.

  One row at a time. With the row's two logits the reals `a`, `b` and its score the real `g`: the maximum over the two
  classes from −∞, joined once more to −∞, is `max a b`; the shifted logits are `a − max a b` and `b − max a b`; their
  exponentials summed from `0` are positive, so the logarithm is the real one; the log-probabilities are the shifted
  logits less that logarithm, which is `a − lse a b` and `b − lse a b` regrouped; the power with exponent two of
  `1 − e^{lp}` is its square; the comparison's bit read as a number is the indicator of `g ≥ 1/2`, from which the two
  class weights; the concatenation of the two weight columns read at column 0 is the first and at column 1 the second.
  The row's two products summed from `0` and negated are the row's loss, and the rows summed from `0`, times one, are
  the total, the rows' indices being the numbers below 16777216.
-/
import proofs.«132625_j55525337202956_2_alg».proof.Proof.RefReadGen
import proofs.«132625_j55525337202956_2_alg».proof.Proof.RowLaw
import Idealize.ShloMosaic.PureOps.Reduce
import Idealize.ShloMosaic.Lib.Pipeline.Value

noncomputable section

namespace Cert.ReferenceIdeal.RefValue

open Cert.ReferenceIdeal Cert.ReferenceIdeal.Gen Cert.ReferenceIdeal.GenP Idealize.ShloMosaic Idealize.ShloMosaic.ValueIdx FocalLoss

/-- A fold over the two numbers below two joins the two values to the initial one. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- A row's index with the class `k` put back is (row, class). -/
theorem lift_row (h : S16777216x2.Reduces [1] S16777216) (n : Fin 16777216) (k : Fin (S16777216x2.size 1)) :
    h.lift (ix1 n) k = ix2 n (⟨k.val, k.isLt⟩ : Fin 2) := by
  funext c; apply Fin.ext
  match c with
  | ⟨0, _⟩ => rfl
  | ⟨1, _⟩ => rfl

section Row

variable (x0 : (⟨S16777216x2, .f32⟩ : BufTy).Contents (Elt Ideal)) (x1 : (⟨S16777216, .f32⟩ : BufTy).Contents (Elt Ideal))
variable (n : Fin 16777216) (a b g : ℝ)

/-- The maximum over the row's two classes, from −∞. -/
theorem call0_v0_row (ha : x0 (ix2 n (0 : Fin 2)) = (a : EReal)) (hb : x0 (ix2 n (1 : Fin 2)) = (b : EReal)) : val_main_call0_v0 (F := Ideal) x0 (ix1 n) = max (a : EReal) (max (b : EReal) ⊥) := by
  unfold val_main_call0_v0
  have h : S16777216x2.Reduces [1] S16777216 := by decide
  have key := Host.reduce_eq_fold_single (FloatOps.maximumf (F := Ideal) (φ := .f32)) x0 (val_main_call0_cst (F := Ideal))
    reducesTo_S16777216x2_S16777216_d1 h h_S_ (ix1 n)
  refine key.trans ?_
  have hf : (x0 ∘ h.lift (ix1 n)) = fun k : Fin 2 => x0 (ix2 n k) := funext fun k => congrArg x0 (lift_row h n k)
  have e := fold_univ_fin2 (max : EReal → EReal → EReal) (Ideal.ofBits .f32 0xFF800000#32) (fun k : Fin 2 => x0 (ix2 n k))
  refine Eq.trans ?_ (e.trans ?_)
  · exact congrArg (fun f => Finset.fold max (Ideal.ofBits .f32 0xFF800000#32) f (Finset.univ : Finset (Fin 2))) hf
  · show max (x0 (ix2 n (0 : Fin 2))) (max (x0 (ix2 n (1 : Fin 2))) (Ideal.ofBits .f32 0xFF800000#32)) = _
    rw [ha, hb, ofBits_neg_inf]

/-- Joined once more to −∞, it is the real maximum. -/
theorem call0_v2_row (ha : x0 (ix2 n (0 : Fin 2)) = (a : EReal)) (hb : x0 (ix2 n (1 : Fin 2)) = (b : EReal)) : val_main_call0_v2 (F := Ideal) x0 (ix1 n) = ((max a b : ℝ) : EReal) := by
  rw [val_main_call0_v2_apply, val_main_call0_v1_apply, val_main_call0_cst_0_apply, call0_v0_row x0 n a b ha hb]
  show max (Ideal.ofBits .f32 0xFF800000#32) (max (a : EReal) (max (b : EReal) ⊥)) = _
  rw [ofBits_neg_inf, max_eq_right bot_le, max_coe_max_bot]

/-- A logit of the row, shifted by the maximum. -/
theorem call0_v5_row (ha : x0 (ix2 n (0 : Fin 2)) = (a : EReal)) (hb : x0 (ix2 n (1 : Fin 2)) = (b : EReal)) (k : Fin 2) (c : ℝ) (hc : x0 (ix2 n k) = (c : EReal)) :
    val_main_call0_v5 (F := Ideal) x0 (ix2 n k) = ((c - max a b : ℝ) : EReal) := by
  rw [val_main_call0_v5_apply, val_main_call0_v4_apply, val_main_call0_v3_apply]
  have hi : idx_main_call0_v3 (idx_main_call0_v4 (ix2 n k)) = ix1 n :=
    funext fun d => Fin.ext (by match d with | ⟨0, _⟩ => rfl)
  rw [hi, call0_v2_row x0 n a b ha hb, hc]
  show (c : EReal) - ((max a b : ℝ) : EReal) = _
  rw [← EReal.coe_sub]

/-- The two shifted logits' exponentials, summed from zero. -/
theorem call0_v7_row (ha : x0 (ix2 n (0 : Fin 2)) = (a : EReal)) (hb : x0 (ix2 n (1 : Fin 2)) = (b : EReal)) : val_main_call0_v7 (F := Ideal) x0 (ix1 n)
    = ((Real.exp (a - max a b) + Real.exp (b - max a b) : ℝ) : EReal) := by
  rw [val_main_call0_v7_apply, val_main_call0_cst_1_apply, Fin.sum_univ_two]
  have h0 : idx_main_call0_v7 (ix1 n) (0 : Fin 2) = ix2 n (0 : Fin 2) :=
    funext fun d => Fin.ext (by match d with | ⟨0, _⟩ => rfl | ⟨1, _⟩ => rfl)
  have h1 : idx_main_call0_v7 (ix1 n) (1 : Fin 2) = ix2 n (1 : Fin 2) :=
    funext fun d => Fin.ext (by match d with | ⟨0, _⟩ => rfl | ⟨1, _⟩ => rfl)
  rw [h0, h1, val_main_call0_v6_apply, val_main_call0_v6_apply,
    call0_v5_row x0 n a b ha hb 0 a ha, call0_v5_row x0 n a b ha hb 1 b hb]
  show Ideal.ofBits .f32 0x00000000#32 + (Ideal.exp ((a - max a b : ℝ) : EReal) + Ideal.exp ((b - max a b : ℝ) : EReal)) = _
  rw [Ideal.ofBits_zero_f32, zero_add, Ideal.exp_coe, Ideal.exp_coe, ← EReal.coe_add]

/-- A log-probability of the row: the shifted logit less the logarithm of that sum. -/
theorem v12_row (ha : x0 (ix2 n (0 : Fin 2)) = (a : EReal)) (hb : x0 (ix2 n (1 : Fin 2)) = (b : EReal)) (k : Fin 2) (c : ℝ) (hc : x0 (ix2 n k) = (c : EReal)) :
    val_main_v12 (F := Ideal) x0 (ix2 n k)
      = ((c - max a b - Real.log (Real.exp (a - max a b) + Real.exp (b - max a b)) : ℝ) : EReal) := by
  rw [val_main_v12_apply, val_main_call0_v10_apply, val_main_call0_v9_apply, val_main_call0_v8_apply]
  have hi : idx_main_call0_v8 (idx_main_call0_v10 (ix2 n k)) = ix1 n :=
    funext fun d => Fin.ext (by match d with | ⟨0, _⟩ => rfl)
  rw [hi, call0_v7_row x0 n a b ha hb, call0_v5_row x0 n a b ha hb k c hc]
  show ((c - max a b : ℝ) : EReal) - Ideal.log ((Real.exp (a - max a b) + Real.exp (b - max a b) : ℝ) : EReal) = _
  rw [log_exp_add_exp, ← EReal.coe_sub]

/-- The focal factor of a class: one less the probability, to the power two, is the square. -/
theorem v17_row (ha : x0 (ix2 n (0 : Fin 2)) = (a : EReal)) (hb : x0 (ix2 n (1 : Fin 2)) = (b : EReal)) (k : Fin 2) (c : ℝ) (hc : x0 (ix2 n k) = (c : EReal)) :
    val_main_v17 (F := Ideal) x0 (ix2 n k)
      = (((1 - Real.exp (c - max a b - Real.log (Real.exp (a - max a b) + Real.exp (b - max a b))))
          * (1 - Real.exp (c - max a b - Real.log (Real.exp (a - max a b) + Real.exp (b - max a b)))) : ℝ) : EReal) := by
  rw [val_main_v17_apply, val_main_v15_apply, val_main_v16_apply, val_main_cst_4_apply, val_main_v14_apply,
    val_main_cst_3_apply, val_main_v13_apply, v12_row x0 n a b ha hb k c hc]
  show Ideal.pow (Ideal.ofBits .f32 0x3F800000#32
      - Ideal.exp ((c - max a b - Real.log (Real.exp (a - max a b) + Real.exp (b - max a b)) : ℝ) : EReal))
    (Ideal.ofBits .f32 0x40000000#32) = _
  rw [Ideal.ofBits_one_f32, Ideal.exp_coe, ← EReal.coe_one, ← EReal.coe_sub, pow_two_coe]

/-- The second class's weight: a quarter of the indicator. -/
theorem v4_row (hg : x1 (ix1 n) = (g : EReal)) : val_main_v4 (F := Ideal) x1 (ix1 n) = ((ind g * (1 / 4) : ℝ) : EReal) := by
  rw [val_main_v4_apply, val_main_v3_apply, val_main_cst_0_apply, val_main_v2_apply, val_main_v1_apply,
    val_main_v0_apply, val_main_cst_apply, hg]
  show ((((Ideal.cmp .oge (g : EReal) (Ideal.ofBits .f32 0x3F000000#32)).toNat : ℝ)) : EReal)
    * Ideal.ofBits .f32 0x3E800000#32 = _
  rw [ofBits_half, cmp_oge_toNat, ofBits_quarter, ← EReal.coe_mul]

/-- The first class's weight: three quarters of one less the second's. -/
theorem v8_row (hg : x1 (ix1 n) = (g : EReal)) : val_main_v8 (F := Ideal) x1 (ix1 n) = (((1 - ind g * (1 / 4)) * (3 / 4) : ℝ) : EReal) := by
  rw [val_main_v8_apply, val_main_v7_apply, val_main_cst_2_apply, val_main_v6_apply, val_main_v5_apply,
    val_main_cst_1_apply, v4_row x1 n g hg]
  show (Ideal.ofBits .f32 0x3F800000#32 - ((ind g * (1 / 4) : ℝ) : EReal)) * Ideal.ofBits .f32 0x3F400000#32 = _
  rw [Ideal.ofBits_one_f32, ofBits_three_quarters, ← EReal.coe_one, ← EReal.coe_sub, ← EReal.coe_mul]

/-- The two weight columns joined, read at the first class, is the first column. -/
theorem v11_row0 : val_main_v11 (F := Ideal) x1 (ix2 n (0 : Fin 2)) = val_main_v8 (F := Ideal) x1 (ix1 n) := by
  unfold val_main_v11
  rw [concatenate_pair_apply_left (1 : Fin S16777216x2.rank) (val_main_v9 (F := Ideal) x1) (val_main_v10 (F := Ideal) x1)
    concatenates_S16777216x1_S16777216x1_S16777216x2_d1 (ix2 n (0 : Fin 2)) rfl (ix2 n (0 : Fin 1))
    (fun d => by match d with | ⟨0, _⟩ => rfl | ⟨1, _⟩ => rfl)]
  rw [val_main_v9_apply]
  exact congrArg _ (funext fun d => Fin.ext (by match d with | ⟨0, _⟩ => rfl))

/-- Read at the second class, it is the second column. -/
theorem v11_row1 : val_main_v11 (F := Ideal) x1 (ix2 n (1 : Fin 2)) = val_main_v4 (F := Ideal) x1 (ix1 n) := by
  unfold val_main_v11
  rw [concatenate_pair_apply_right (1 : Fin S16777216x2.rank) (val_main_v9 (F := Ideal) x1) (val_main_v10 (F := Ideal) x1)
    concatenates_S16777216x1_S16777216x1_S16777216x2_d1 (ix2 n (1 : Fin 2)) rfl rfl (ix2 n (0 : Fin 1))
    (fun d hd => by match d, hd with | ⟨0, _⟩, _ => rfl | ⟨1, _⟩, hd => exact absurd rfl hd) rfl]
  rw [val_main_v10_apply]
  exact congrArg _ (funext fun d => Fin.ext (by match d with | ⟨0, _⟩ => rfl))

/-- The row's loss. -/
theorem v21_row (ha : x0 (ix2 n (0 : Fin 2)) = (a : EReal)) (hb : x0 (ix2 n (1 : Fin 2)) = (b : EReal)) (hg : x1 (ix1 n) = (g : EReal)) : val_main_v21 (F := Ideal) x0 x1 (ix1 n) = ((rowLoss a b g : ℝ) : EReal) := by
  rw [val_main_v21_apply, val_main_v20_apply, val_main_cst_5_apply, Fin.sum_univ_two]
  have h0 : idx_main_v20 (ix1 n) (0 : Fin 2) = ix2 n (0 : Fin 2) :=
    funext fun d => Fin.ext (by match d with | ⟨0, _⟩ => rfl | ⟨1, _⟩ => rfl)
  have h1 : idx_main_v20 (ix1 n) (1 : Fin 2) = ix2 n (1 : Fin 2) :=
    funext fun d => Fin.ext (by match d with | ⟨0, _⟩ => rfl | ⟨1, _⟩ => rfl)
  rw [h0, h1, val_main_v19_apply, val_main_v19_apply, val_main_v18_apply, val_main_v18_apply,
    v11_row0 x1 n, v11_row1 x1 n, v8_row x1 n g hg, v4_row x1 n g hg,
    v12_row x0 n a b ha hb 0 a ha, v12_row x0 n a b ha hb 1 b hb,
    v17_row x0 n a b ha hb 0 a ha, v17_row x0 n a b ha hb 1 b hb]
  simp only [Ideal.hostNegf_def, Ideal.negf_def, Ideal.mulf_def, Ideal.ofBits_def, Ideal.ofBits_zero_f32, zero_add,
    ← EReal.coe_mul, ← EReal.coe_add, ← EReal.coe_neg]
  congr 1
  unfold rowLoss lse
  simp only [sub_add_eq_sub_sub]

end Row

/-- The rows' indices are the numbers below 16777216. -/
def rowEquiv : S16777216.Idx ≃ Fin 16777216 where
  toFun j := j 0
  invFun n := ix1 n
  left_inv j := (eq_ix1 j).symm
  right_inv _ := rfl

/-- At the ideal instance, on arrays every entry of which is a real, the reference's last stage is the total loss. -/
theorem value_eq (x0 : (⟨S16777216x2, .f32⟩ : BufTy).Contents (Elt Ideal)) (x1 : (⟨S16777216, .f32⟩ : BufTy).Contents (Elt Ideal))
    (h0 : ∀ i, ∃ r : ℝ, x0 i = (r : EReal)) (h1 : ∀ i, ∃ r : ℝ, x1 i = (r : EReal)) :
    val_main_v23 (F := Ideal) x0 x1 = fun _ => FocalLoss.total x0 x1 := by
  funext i
  rw [val_main_v23_apply, val_main_v22_apply, val_main_cst_7_apply, val_main_cst_6_apply]
  show (Ideal.ofBits .f32 0x00000000#32 + ∑ j : S16777216.Idx, val_main_v21 (F := Ideal) x0 x1 j)
    * Ideal.ofBits .f32 0x3F800000#32 = _
  rw [Ideal.ofBits_zero_f32, Ideal.ofBits_one_f32, zero_add, mul_one]
  unfold FocalLoss.total
  rw [coe_sum]
  refine Fintype.sum_equiv rowEquiv _ _ (fun j => ?_)
  obtain ⟨n, rfl⟩ : ∃ n : Fin 16777216, j = ix1 n := ⟨j 0, eq_ix1 j⟩
  obtain ⟨a, ha⟩ := h0 (ix2 n (0 : Fin 2))
  obtain ⟨b, hb⟩ := h0 (ix2 n (1 : Fin 2))
  obtain ⟨g, hg⟩ := h1 (ix1 n)
  show val_main_v21 (F := Ideal) x0 x1 (ix1 n)
    = ((rowLoss (x0 (ix2 n (0 : Fin 2))).toReal (x0 (ix2 n (1 : Fin 2))).toReal (x1 (ix1 n)).toReal : ℝ) : EReal)
  rw [ha, hb, hg, EReal.toReal_coe, EReal.toReal_coe, EReal.toReal_coe]
  exact v21_row x0 x1 n a b g ha hb hg

end Cert.ReferenceIdeal.RefValue

end
-- ==== Proof.lean ====
/-
  The certificate's proof: a Pallas kernel and a jnp reference compute the same two-class focal loss, summed over
  16777216 rows, on the extended reals.

  Per row, with logits (a, b) and score g: the target is 1 when g ≥ 1/2 and 0 otherwise; the two class weights are
  w₁ = target / 4 and w₀ = (1 − w₁) · 3/4; the log-probabilities are a − lse and b − lse with lse = log (eᵃ + eᵇ) taken
  through the larger logit; the row's loss is −(w₀ · lp₀ · (1 − e^{lp₀})² + w₁ · lp₁ · (1 − e^{lp₁})²)
  (Proof/Spec.lean). The kernel folds 128 consecutive rows into one lane-dense row, walks its blocks in tiles, keeps a
  per-core partial sum in one entry of a small output block, and the host adds the two cores' entries; the reference
  takes jax's log-softmax, raises 1 − p to the power 2.0 and sums over classes and then over rows. Under the
  precondition every input is a real number, so every intermediate value is a real: the two ways of writing the
  log-probability agree on ℝ, a square is a product, and a finite sum of reals may be regrouped freely — both results
  are the specification's total.

  The three frames are the generated frame runs (the reference's is its run with the value dropped); the ideal pass
  rewrote nothing, so `preserves` is `True`; `algebraic` puts the kernel's run (Proof/KSum.lean) beside the reference's
  (Proof/RefRun.lean, Proof/RefValue.lean), both posted at the specification's total of the kernel's argument arrays.
-/
import proofs.«132625_j55525337202956_2_alg».proof.Defs
import proofs.«132625_j55525337202956_2_alg».proof.Proof.Gen.Kernel
import proofs.«132625_j55525337202956_2_alg».proof.Proof.Gen.Kernel.Frame
import proofs.«132625_j55525337202956_2_alg».proof.Proof.Gen.KernelIdeal
import proofs.«132625_j55525337202956_2_alg».proof.Proof.Gen.KernelIdeal.Frame
import proofs.«132625_j55525337202956_2_alg».proof.Proof.Gen.ReferenceIdeal
import proofs.«132625_j55525337202956_2_alg».proof.Proof.Gen.Pre_finite_inputs
import proofs.«132625_j55525337202956_2_alg».proof.Proof.FiniteInputs
import proofs.«132625_j55525337202956_2_alg».proof.Proof.KSum
import proofs.«132625_j55525337202956_2_alg».proof.Proof.RefRun
import proofs.«132625_j55525337202956_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the value dropped. -/
theorem frame_ri : Cert.frame_ReferenceIdeal := fun m ρ _ =>
  (θ_run Cert.ReferenceIdeal.defs _ _).mono (fun _ h c => (h c).2) (Cert.ReferenceIdeal.RefValue.run_val (F := Ideal) m ρ)

/-- Both programs, from memories agreeing on the arguments, end at the specification's total of those arguments. -/
theorem algebraic : Cert.algebraic_KernelIdeal_ReferenceIdeal := by
  intro m ρ m' ρ' hpre hagree
  have hfin : ∀ c : Dev Cert.KernelIdeal.nD,
      (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) :=
    fun c => FocalLoss.finite_of_pre _ _ (hpre c)
  refine ⟨fun c => fun _ => FocalLoss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ hfin, ?_⟩
  refine (θ_run Cert.ReferenceIdeal.defs _ _).mono (fun _ h c => ⟨(h c).1.trans ?_, (h c).2⟩)
    (Cert.ReferenceIdeal.RefValue.run_val (F := Ideal) m' ρ')
  rw [(hagree c).1, (hagree c).2]
  exact Cert.ReferenceIdeal.RefValue.value_eq _ _ (hfin c).1 (hfin c).2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
